-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x64 .f32) (main_arg1 : IVec S800000 32) (main_arg2 : IVec S800000 32) (main_arg3 : FVec F S64x128 .f32) (main_arg4 : FVec F S64x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x128 : Shape := ⟨2, ![1, 128]⟩
abbrev S50000x128 : Shape := ⟨2, ![50000, 128]⟩
abbrev S5000x64 : Shape := ⟨2, ![5000, 64]⟩
abbrev S5000x1 : Shape := ⟨2, ![5000, 1]⟩
abbrev S5000x128 : Shape := ⟨2, ![5000, 128]⟩
abbrev S800000x128 : Shape := ⟨2, ![800000, 128]⟩
abbrev S1x64 : Shape := ⟨2, ![1, 64]⟩

abbrev nBuf : Space → Nat
  | .hbm => 71
  | .vmem => 37
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S1x128, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x64, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S1x64, .f32⟩
  | .hbm, ⟨70, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | .local _ .vmem, ⟨27, _⟩ => ⟨S5000x128, .f32⟩
  | .local _ .vmem, ⟨28, _⟩ => ⟨S5000x128, .f32⟩
  | .local _ .vmem, ⟨29, _⟩ => ⟨S5000x64, .f32⟩
  | .local _ .vmem, ⟨30, _⟩ => ⟨S5000x64, .f32⟩
  | .local _ .vmem, ⟨31, _⟩ => ⟨S5000x1, .f32⟩
  | .local _ .vmem, ⟨32, _⟩ => ⟨S5000x1, .f32⟩
  | .local _ .vmem, ⟨33, _⟩ => ⟨S128x64, .f32⟩
  | .local _ .vmem, ⟨34, _⟩ => ⟨S1x64, .f32⟩
  | .local _ .vmem, ⟨35, _⟩ => ⟨S5000x64, .f32⟩
  | .local _ .vmem, ⟨36, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x64 : S_.BroadcastsInDim S50000x64 (![] : Fin 0 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v32) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S_, .f32⟩
  | .hbm, ⟨94, _⟩ => ⟨S800000, .f32⟩
  | .hbm, ⟨95, _⟩ => ⟨S_, .f32⟩
  | .hbm, ⟨96, _⟩ => ⟨S50000, .f32⟩
  | .hbm, ⟨97, _⟩ => ⟨S800000x1, .i32⟩
  | .hbm, ⟨98, _⟩ => ⟨S50000, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x64, .f32⟩
  | .hbm, ⟨106, _⟩ => ⟨S50000x64, .f32⟩
  | .hbm, ⟨107, _⟩ => ⟨S50000x64, .f32⟩
  | .hbm, ⟨108, _⟩ => ⟨S1x64, .f32⟩
  | .hbm, ⟨109, _⟩ => ⟨S50000x64, .f32⟩
  | .hbm, ⟨110, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run, with its result array named.

  The program is four kernel launches among stretches of host operations. Every weakly fair execution from a
  memory with zero counters terminates, nothing faulting, with the argument arrays as launched and the result
  array at the contents the last launch's write-backs leave: the buffer contents after the whole fold of
  segments, read at the result's buffer.
-/
import proofs.«137012_j14748917695089_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments
    unchanged. -/
theorem run : θ_run defs (onTc (τ := τ) (main (F := F))) ⟨m, fun _ => 0, ρ⟩ (fun r => ∀ c : Dev nD,
      r.2.mem ((c.tc : Thread nD τ).loc main_v45) = W7 m ρ c (Proc.devRef .tc main_v45)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v45 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.Whole

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.Bodies.lean ====
/-
  The four kernel bodies, each read at one entry (p, q) of its output block, on the extended reals.

  A full layer's body stores max((x·Ws)(p,q) + ((hn ⊙ inv)·Wn)(p,q) + b(q), 0): two products into a zero
  accumulator (each a sum over the contracted axis), the neighbour sums scaled row by row by the column inv,
  the bias row spread over the rows. The projection body stores (h·W)(p,q); the last layer's body stores
  (h·Ws)(p,q) + hn(p,q)·inv(p) + b(q). Narrowing to bf16 and back changes nothing on the extended reals.
-/
import proofs.«137012_j14748917695089_2_alg».proof.Proof.Gen.KernelIdeal.Skeleton
import proofs.«137012_j14748917695089_2_alg».proof.Proof.LibMatmulAt
import proofs.«137012_j14748917695089_2_alg».proof.Proof.LibColumn
import Idealize.ShloMosaic.Lib.ValueIdx
import Idealize.ShloMosaic.Lib.ValueLayout
import Idealize.ShloMosaic.Lib.Pipeline.Value

noncomputable section

namespace Cert.KernelIdeal.Bodies

open Idealize.ShloMosaic Idealize.ShloMosaic.TcCoe Idealize.ShloMosaic.ValueIdx Cert.KernelIdeal Cert.KernelIdeal.Gen
open scoped BigOperators

/-- The first layer's body at (p, q). -/
theorem full0_apply (v0 : FVec Ideal S5000x64 .f32) (v2 : FVec Ideal S64x128 .f32) (v5 : FVec Ideal S5000x64 .f32)
    (v7 : FVec Ideal S5000x1 .f32) (v12 : FVec Ideal S64x128 .f32) (v16 : FVec Ideal S1x128 .f32) (p : Fin 5000) (q : Fin 128) :
    k0_pay1 (F := Ideal) v0 v2 v5 v7 v12 v16 (ix2 p q)
      = max ((∑ k : Fin 64, v0 (ix2 p k) * v2 (ix2 k q) + ∑ k : Fin 64, (v5 (ix2 p k) * v7 (ix2 p (0 : Fin 1))) * v12 (ix2 k q))
          + v16 (ix2 (0 : Fin 1) q)) (Ideal.ofBits .f32 0x00000000#32) := by
  unfold k0_pay1
  simp only [maximumf_apply, addf_apply, broadcast_apply]
  rw [Cert.LibMatmulAt.matmul_zero_apply _ rfl rfl rfl rfl rfl rfl, Cert.LibMatmulAt.matmul_zero_apply _ rfl rfl rfl rfl rfl rfl,
    broadcastTo_1b_ab_apply]
  simp only [truncf_apply, mulf_apply, shapeCast_self, Cert.LibColumn.broadcastTo_a1_ab_apply]
  rfl

/-- The second layer's body at (p, q). -/
theorem full1_apply (v0 : FVec Ideal S5000x128 .f32) (v3 : FVec Ideal S128x128 .f32) (v6 : FVec Ideal S5000x128 .f32)
    (v8 : FVec Ideal S5000x1 .f32) (v13 : FVec Ideal S128x128 .f32) (v17 : FVec Ideal S1x128 .f32) (p : Fin 5000) (q : Fin 128) :
    k1_pay1 (F := Ideal) v0 v3 v6 v8 v13 v17 (ix2 p q)
      = max ((∑ k : Fin 128, v0 (ix2 p k) * v3 (ix2 k q) + ∑ k : Fin 128, (v6 (ix2 p k) * v8 (ix2 p (0 : Fin 1))) * v13 (ix2 k q))
          + v17 (ix2 (0 : Fin 1) q)) (Ideal.ofBits .f32 0x00000000#32) := by
  unfold k1_pay1
  simp only [maximumf_apply, addf_apply, broadcast_apply]
  rw [Cert.LibMatmulAt.matmul_zero_apply _ rfl rfl rfl rfl rfl rfl, Cert.LibMatmulAt.matmul_zero_apply _ rfl rfl rfl rfl rfl rfl,
    broadcastTo_1b_ab_apply]
  simp only [truncf_apply, mulf_apply, shapeCast_self, Cert.LibColumn.broadcastTo_a1_ab_apply]
  rfl

/-- The projection body at (p, q): the product of the row block with the weights. -/
theorem proj_apply (v0 : FVec Ideal S5000x128 .f32) (v3 : FVec Ideal S128x64 .f32) (p : Fin 5000) (q : Fin 64) :
    k2_pay1 (F := Ideal) v0 v3 (ix2 p q) = ∑ k : Fin 128, v0 (ix2 p k) * v3 (ix2 k q) := by
  unfold k2_pay1
  rw [Cert.LibMatmulAt.matmul_zero_apply _ rfl rfl rfl rfl rfl rfl]
  simp only [truncf_apply, shapeCast_self]

/-- The last layer's body at (p, q). -/
theorem last_apply (v0 : FVec Ideal S5000x128 .f32) (v3 : FVec Ideal S128x64 .f32) (v6 : FVec Ideal S5000x64 .f32)
    (v8 : FVec Ideal S5000x1 .f32) (v13 : FVec Ideal S1x64 .f32) (p : Fin 5000) (q : Fin 64) :
    k3_pay1 (F := Ideal) v0 v3 v6 v8 v13 (ix2 p q)
      = (∑ k : Fin 128, v0 (ix2 p k) * v3 (ix2 k q) + v6 (ix2 p q) * v8 (ix2 p (0 : Fin 1))) + v13 (ix2 (0 : Fin 1) q) := by
  unfold k3_pay1
  simp only [addf_apply]
  rw [Cert.LibMatmulAt.matmul_zero_apply _ rfl rfl rfl rfl rfl rfl, broadcastTo_1b_ab_apply]
  simp only [truncf_apply, mulf_apply, shapeCast_self, Cert.LibColumn.broadcastTo_a1_ab_apply]

end Cert.KernelIdeal.Bodies

end
-- ==== Proof.SageSpec.lean ====
/-
  One graph layer as a function of whole arrays, entry by entry, on the extended reals.

  With x the node features [N, K], a the neighbour sums [N, K] (row n: the sum of the rows of x over the edges
  that land on n), iv the column [N, 1] of reciprocal clamped in-degrees, ws and wn the two weight matrices
  [K, C] and b the bias row [1, C]:
    fullLayer (n, q) = max(∑_k x(n,k)·ws(k,q) + ∑_k (a(n,k)·iv(n))·wn(k,q) + b(q), 0)
    proj      (n, q) = ∑_k h(n,k)·w(k,q)
    lastLayer (n, q) = ∑_k h(n,k)·ws(k,q) + a'(n,q)·iv(n) + b(q),   a' the neighbour sums of proj h wn.
-/
import Mathlib
import Idealize.ShloMosaic.PureOps.Ideal
import Idealize.ShloMosaic.Lib.ValueIdx

noncomputable section

namespace Cert.SageSpec

open Idealize.ShloMosaic Idealize.ShloMosaic.ValueIdx
open scoped BigOperators

/-- A layer with its rectifier: self product plus product of the scaled neighbour sums plus bias, clamped at 0. -/
def fullLayer {N K C : ℕ} (x a : (⟨2, ![N, K]⟩ : Shape).Idx → EReal) (iv : (⟨2, ![N, 1]⟩ : Shape).Idx → EReal)
    (ws wn : (⟨2, ![K, C]⟩ : Shape).Idx → EReal) (b : (⟨2, ![1, C]⟩ : Shape).Idx → EReal) :
    (⟨2, ![N, C]⟩ : Shape).Idx → EReal :=
  fun i => max ((∑ k : Fin K, x (ix2 (i 0) k) * ws (ix2 k (i 1))
      + ∑ k : Fin K, (a (ix2 (i 0) k) * iv (ix2 (i 0) (0 : Fin 1))) * wn (ix2 k (i 1))) + b (ix2 (0 : Fin 1) (i 1)))
    (Ideal.ofBits .f32 0x00000000#32)

/-- A plain matrix product. -/
def proj {N K C : ℕ} (h : (⟨2, ![N, K]⟩ : Shape).Idx → EReal) (w : (⟨2, ![K, C]⟩ : Shape).Idx → EReal) :
    (⟨2, ![N, C]⟩ : Shape).Idx → EReal :=
  fun i => ∑ k : Fin K, h (ix2 (i 0) k) * w (ix2 k (i 1))

/-- The last layer, whose neighbour sums a are already projected: no rectifier. -/
def lastLayer {N K C : ℕ} (h : (⟨2, ![N, K]⟩ : Shape).Idx → EReal) (a : (⟨2, ![N, C]⟩ : Shape).Idx → EReal)
    (iv : (⟨2, ![N, 1]⟩ : Shape).Idx → EReal) (ws : (⟨2, ![K, C]⟩ : Shape).Idx → EReal)
    (b : (⟨2, ![1, C]⟩ : Shape).Idx → EReal) : (⟨2, ![N, C]⟩ : Shape).Idx → EReal :=
  fun i => (∑ k : Fin K, h (ix2 (i 0) k) * ws (ix2 k (i 1)) + a i * iv (ix2 (i 0) (0 : Fin 1))) + b (ix2 (0 : Fin 1) (i 1))

theorem fullLayer_apply {N K C : ℕ} (x a : (⟨2, ![N, K]⟩ : Shape).Idx → EReal) (iv : (⟨2, ![N, 1]⟩ : Shape).Idx → EReal)
    (ws wn : (⟨2, ![K, C]⟩ : Shape).Idx → EReal) (b : (⟨2, ![1, C]⟩ : Shape).Idx → EReal) (n : Fin N) (q : Fin C) :
    fullLayer x a iv ws wn b (ix2 n q) = max ((∑ k : Fin K, x (ix2 n k) * ws (ix2 k q)
      + ∑ k : Fin K, (a (ix2 n k) * iv (ix2 n (0 : Fin 1))) * wn (ix2 k q)) + b (ix2 (0 : Fin 1) q))
    (Ideal.ofBits .f32 0x00000000#32) := rfl

theorem proj_apply {N K C : ℕ} (h : (⟨2, ![N, K]⟩ : Shape).Idx → EReal) (w : (⟨2, ![K, C]⟩ : Shape).Idx → EReal)
    (n : Fin N) (q : Fin C) : proj h w (ix2 n q) = ∑ k : Fin K, h (ix2 n k) * w (ix2 k q) := rfl

theorem lastLayer_apply {N K C : ℕ} (h : (⟨2, ![N, K]⟩ : Shape).Idx → EReal) (a : (⟨2, ![N, C]⟩ : Shape).Idx → EReal)
    (iv : (⟨2, ![N, 1]⟩ : Shape).Idx → EReal) (ws : (⟨2, ![K, C]⟩ : Shape).Idx → EReal)
    (b : (⟨2, ![1, C]⟩ : Shape).Idx → EReal) (n : Fin N) (q : Fin C) :
    lastLayer h a iv ws b (ix2 n q)
      = (∑ k : Fin K, h (ix2 n k) * ws (ix2 k q) + a (ix2 n q) * iv (ix2 n (0 : Fin 1))) + b (ix2 (0 : Fin 1) q) := rfl

end Cert.SageSpec

end
-- ==== Proof.Region0.lean ====
/-
  Launch 0 of the idealized kernel, as one function of the arrays it finds on entry.

  The grid has ten points; point t works on rows 5000·t … 5000·t + 4999 of the node arrays (the features, the
  neighbour sums, the reciprocal-degree column and the output) and on the whole of the two weight matrices and the
  bias row. What point t writes back is the layer's function of the whole arrays, restricted to its rows; the ten
  row blocks tile the output, so after the launch the output array holds the layer's function of the arrays.
-/
import proofs.«137012_j14748917695089_2_alg».proof.Proof.Gen.KernelIdeal.Frame
import proofs.«137012_j14748917695089_2_alg».proof.Proof.Bodies
import proofs.«137012_j14748917695089_2_alg».proof.Proof.SageSpec
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies Cert.SageSpec
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Row p of point t's block is row 5000·t + p of the array. -/
def row (t : ℕ) (ht : t < 10) (p : Fin 5000) : Fin 50000 := ⟨t * 5000 + p.val, by have := p.isLt; omega⟩

/-- The body on blocks that are the rows 5000·t … of whole arrays is the layer's function of those arrays. -/
theorem body_block (x a : S50000x64.Idx → EReal) (iv : S50000x1.Idx → EReal) (ws wn : S64x128.Idx → EReal) (b : S1x128.Idx → EReal)
    (x0 x1 : FVec Ideal S5000x64 .f32) (x2 : FVec Ideal S5000x1 .f32) (x3 x4 : FVec Ideal S64x128 .f32) (x5 : FVec Ideal S1x128 .f32)
    (t : ℕ) (ht : t < 10)
    (h0 : ∀ (p : Fin 5000) (k : Fin 64), x0 (ix2 p k) = x (ix2 (row t ht p) k))
    (h1 : ∀ (p : Fin 5000) (k : Fin 64), x1 (ix2 p k) = a (ix2 (row t ht p) k))
    (h2 : ∀ (p : Fin 5000), x2 (ix2 p (0 : Fin 1)) = iv (ix2 (row t ht p) (0 : Fin 1)))
    (h3 : ∀ (k : Fin 64) (q : Fin 128), x3 (ix2 k q) = ws (ix2 k q))
    (h4 : ∀ (k : Fin 64) (q : Fin 128), x4 (ix2 k q) = wn (ix2 k q))
    (h5 : ∀ (q : Fin 128), x5 (ix2 (0 : Fin 1) q) = b (ix2 (0 : Fin 1) q))
    (p : Fin 5000) (q : Fin 128) :
    k0_pay1 (F := Ideal) x0 x3 x1 x2 x4 x5 (ix2 p q) = fullLayer x a iv ws wn b (ix2 (row t ht p) q) := by
  rw [full0_apply, fullLayer_apply]
  simp only [h0, h1, h2, h3, h4, h5]

/-- The printed index maps over the grid: the node arrays' blocks move with the point, the weights and the bias stay. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 10 := by
  have h := t.isLt
  have hN : cfg0.N = 10 := N_0
  omega

/-- What point t writes back: the layer's function of the entry arrays, read through the point's block. -/
theorem flushed (c : Dev nD) (t : Fin cfg0.N) :
    (dat0 V c).flushed 6 t = ((cfg0.win 6).blk t).view.read (Elt Ideal)
      (fullLayer (V c main_arg0) (V c main_v18) (V c main_v8) (V c main_arg3) (V c main_arg4) (V c main_v19)) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x128) hz,
    View.ld_unit_zero (S := S5000x1) hz, View.ld_unit_zero (S := S1x128) hz]
  obtain ⟨e00, e01, e10, e11, e20, e21, e30, e31, e40, e41, e50, e51, e60, e61⟩ := idx t
  funext j
  obtain ⟨p, q, rfl⟩ : ∃ (p : Fin 5000) (q : Fin 128), j = ix2 p q := ⟨j 0, j 1, eq_ix2 j⟩
  refine (body_block (V c main_arg0) (V c main_v18) (V c main_v8) (V c main_arg3) (V c main_arg4) (V c main_v19)
    (iblk0 V c 0 t) (iblk0 V c 1 t) (iblk0 V c 2 t) (iblk0 V c 3 t) (iblk0 V c 4 t) (iblk0 V c 5 t)
    t.val (t_lt t) ?_ ?_ ?_ ?_ ?_ ?_ p q).trans ?_
  · intro p k
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · intro p k
    show V c main_v18 (((cfg0.win 1).blk t).view.emb (ix2 p k)) = _
    refine congrArg (V c main_v18) (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * k.val = k.val; omega
  · intro p
    show V c main_v8 (((cfg0.win 2).blk t).view.emb (ix2 p (0 : Fin 1))) = _
    refine congrArg (V c main_v8) (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  · intro k q
    show V c main_arg3 (((cfg0.win 3).blk t).view.emb (ix2 k q)) = _
    refine congrArg (V c main_arg3) (funext fun a => Fin.ext ?_)
    match a with
    | ⟨0, _⟩ => show win0_3.index t (0 : Fin 2) * 64 + 1 * k.val = k.val; omega
    | ⟨1, _⟩ => show win0_3.index t (1 : Fin 2) * 128 + 1 * q.val = q.val; omega
  · intro k q
    show V c main_arg4 (((cfg0.win 4).blk t).view.emb (ix2 k q)) = _
    refine congrArg (V c main_arg4) (funext fun a => Fin.ext ?_)
    match a with
    | ⟨0, _⟩ => show win0_4.index t (0 : Fin 2) * 64 + 1 * k.val = k.val; omega
    | ⟨1, _⟩ => show win0_4.index t (1 : Fin 2) * 128 + 1 * q.val = q.val; omega
  · intro q
    show V c main_v19 (((cfg0.win 5).blk t).view.emb (ix2 (0 : Fin 1) q)) = _
    refine congrArg (V c main_v19) (funext fun a => Fin.ext ?_)
    match a with
    | ⟨0, _⟩ => show win0_5.index t (0 : Fin 2) * 1 + 1 * 0 = 0; omega
    | ⟨1, _⟩ => show win0_5.index t (1 : Fin 2) * 128 + 1 * q.val = q.val; omega
  · show _ = fullLayer (V c main_arg0) (V c main_v18) (V c main_v8) (V c main_arg3) (V c main_arg4) (V c main_v19)
      (((cfg0.win 6).blk t).view.emb (ix2 p q))
    refine congrArg _ (funext fun a => Fin.ext ?_)
    match a with
    | ⟨0, _⟩ => show t.val * 5000 + p.val = win0_6.index t (0 : Fin 2) * 5000 + 1 * p.val; omega
    | ⟨1, _⟩ => show q.val = win0_6.index t (1 : Fin 2) * 128 + 1 * q.val; omega

/-- An index of the output array is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20).slice (win0_6.rect t)).set ↔ _
  rw [View.set_slice_whole, Rect.mem_set_unit]
  exact Iff.rfl

/-- The ten row blocks tile the output: row n lies in the block of point n / 5000. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  refine ⟨⟨(i 0).val / 5000, by omega⟩, flush0_6 _, ?_⟩
  rw [mem_blk]
  obtain ⟨e00, e01, e10, e11, e20, e21, e30, e31, e40, e41, e50, e51, e60, e61⟩ := idx ⟨(i 0).val / 5000, by omega⟩
  intro a
  match a with
  | ⟨0, _⟩ => show win0_6.index _ (0 : Fin 2) * 5000 ≤ (i 0).val ∧ (i 0).val < win0_6.index _ (0 : Fin 2) * 5000 + 5000; simp only [] at e60; omega
  | ⟨1, _⟩ => show win0_6.index _ (1 : Fin 2) * 128 ≤ (i 1).val ∧ (i 1).val < win0_6.index _ (1 : Fin 2) * 128 + 128; omega

/-- After the launch the output array holds the layer's function of the entry arrays. -/
theorem final (c : Dev nD) :
    (dat0 V c).arrAt 6 cfg0.N
      = fullLayer (V c main_arg0) (V c main_v18) (V c main_v8) (V c main_arg3) (V c main_arg4) (V c main_v19) :=
  (dat0 V c).arrAt_eq_of_cover 6 _ (fun t _ => flushed V c t) (cover)

end Cert.KernelIdeal.Region0

end
-- ==== Proof.Region1.lean ====
/-
  Launch 1 of the idealized kernel, as one function of the arrays it finds on entry.

  The grid has ten points; point t works on rows 5000·t … 5000·t + 4999 of the node arrays (the features, the
  neighbour sums, the reciprocal-degree column and the output) and on the whole of the two weight matrices and the
  bias row. What point t writes back is the layer's function of the whole arrays, restricted to its rows; the ten
  row blocks tile the output, so after the launch the output array holds the layer's function of the arrays.
-/
import proofs.«137012_j14748917695089_2_alg».proof.Proof.Gen.KernelIdeal.Frame
import proofs.«137012_j14748917695089_2_alg».proof.Proof.Bodies
import proofs.«137012_j14748917695089_2_alg».proof.Proof.SageSpec
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies Cert.SageSpec
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Row p of point t's block is row 5000·t + p of the array. -/
def row (t : ℕ) (ht : t < 10) (p : Fin 5000) : Fin 50000 := ⟨t * 5000 + p.val, by have := p.isLt; omega⟩

/-- The body on blocks that are the rows 5000·t … of whole arrays is the layer's function of those arrays. -/
theorem body_block (x a : S50000x128.Idx → EReal) (iv : S50000x1.Idx → EReal) (ws wn : S128x128.Idx → EReal) (b : S1x128.Idx → EReal)
    (x0 x1 : FVec Ideal S5000x128 .f32) (x2 : FVec Ideal S5000x1 .f32) (x3 x4 : FVec Ideal S128x128 .f32) (x5 : FVec Ideal S1x128 .f32)
    (t : ℕ) (ht : t < 10)
    (h0 : ∀ (p : Fin 5000) (k : Fin 128), x0 (ix2 p k) = x (ix2 (row t ht p) k))
    (h1 : ∀ (p : Fin 5000) (k : Fin 128), x1 (ix2 p k) = a (ix2 (row t ht p) k))
    (h2 : ∀ (p : Fin 5000), x2 (ix2 p (0 : Fin 1)) = iv (ix2 (row t ht p) (0 : Fin 1)))
    (h3 : ∀ (k : Fin 128) (q : Fin 128), x3 (ix2 k q) = ws (ix2 k q))
    (h4 : ∀ (k : Fin 128) (q : Fin 128), x4 (ix2 k q) = wn (ix2 k q))
    (h5 : ∀ (q : Fin 128), x5 (ix2 (0 : Fin 1) q) = b (ix2 (0 : Fin 1) q))
    (p : Fin 5000) (q : Fin 128) :
    k1_pay1 (F := Ideal) x0 x3 x1 x2 x4 x5 (ix2 p q) = fullLayer x a iv ws wn b (ix2 (row t ht p) q) := by
  rw [full1_apply, fullLayer_apply]
  simp only [h0, h1, h2, h3, h4, h5]

/-- The printed index maps over the grid: the node arrays' blocks move with the point, the weights and the bias stay. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 10 := by
  have h := t.isLt
  have hN : cfg1.N = 10 := N_1
  omega

/-- What point t writes back: the layer's function of the entry arrays, read through the point's block. -/
theorem flushed (c : Dev nD) (t : Fin cfg1.N) :
    (dat1 V c).flushed 6 t = ((cfg1.win 6).blk t).view.read (Elt Ideal)
      (fullLayer (V c main_v20) (V c main_v30) (V c main_v8) (V c main_arg6) (V c main_arg7) (V c main_v31)) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz,
    View.ld_unit_zero (S := S5000x1) hz, View.ld_unit_zero (S := S1x128) hz]
  obtain ⟨e00, e01, e10, e11, e20, e21, e30, e31, e40, e41, e50, e51, e60, e61⟩ := idx t
  funext j
  obtain ⟨p, q, rfl⟩ : ∃ (p : Fin 5000) (q : Fin 128), j = ix2 p q := ⟨j 0, j 1, eq_ix2 j⟩
  refine (body_block (V c main_v20) (V c main_v30) (V c main_v8) (V c main_arg6) (V c main_arg7) (V c main_v31)
    (iblk1 V c 0 t) (iblk1 V c 1 t) (iblk1 V c 2 t) (iblk1 V c 3 t) (iblk1 V c 4 t) (iblk1 V c 5 t)
    t.val (t_lt t) ?_ ?_ ?_ ?_ ?_ ?_ p q).trans ?_
  · intro p k
    show V c main_v20 (((cfg1.win 0).blk t).view.emb (ix2 p k)) = _
    refine congrArg (V c main_v20) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro p k
    show V c main_v30 (((cfg1.win 1).blk t).view.emb (ix2 p k)) = _
    refine congrArg (V c main_v30) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · intro p
    show V c main_v8 (((cfg1.win 2).blk t).view.emb (ix2 p (0 : Fin 1))) = _
    refine congrArg (V c main_v8) (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  · intro k q
    show V c main_arg6 (((cfg1.win 3).blk t).view.emb (ix2 k q)) = _
    refine congrArg (V c main_arg6) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · intro k q
    show V c main_arg7 (((cfg1.win 4).blk t).view.emb (ix2 k q)) = _
    refine congrArg (V c main_arg7) (funext fun a => Fin.ext ?_)
    match a with
    | ⟨0, _⟩ => show win1_4.index t (0 : Fin 2) * 128 + 1 * k.val = k.val; omega
    | ⟨1, _⟩ => show win1_4.index t (1 : Fin 2) * 128 + 1 * q.val = q.val; omega
  · intro q
    show V c main_v31 (((cfg1.win 5).blk t).view.emb (ix2 (0 : Fin 1) q)) = _
    refine congrArg (V c main_v31) (funext fun a => Fin.ext ?_)
    match a with
    | ⟨0, _⟩ => show win1_5.index t (0 : Fin 2) * 1 + 1 * 0 = 0; omega
    | ⟨1, _⟩ => show win1_5.index t (1 : Fin 2) * 128 + 1 * q.val = q.val; omega
  · show _ = fullLayer (V c main_v20) (V c main_v30) (V c main_v8) (V c main_arg6) (V c main_arg7) (V c main_v31)
      (((cfg1.win 6).blk t).view.emb (ix2 p q))
    refine congrArg _ (funext fun a => Fin.ext ?_)
    match a with
    | ⟨0, _⟩ => show t.val * 5000 + p.val = win1_6.index t (0 : Fin 2) * 5000 + 1 * p.val; omega
    | ⟨1, _⟩ => show q.val = win1_6.index t (1 : Fin 2) * 128 + 1 * q.val; omega

/-- An index of the output array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v32).slice (win1_6.rect t)).set ↔ _
  rw [View.set_slice_whole, Rect.mem_set_unit]
  exact Iff.rfl

/-- The ten row blocks tile the output: row n lies in the block of point n / 5000. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  refine ⟨⟨(i 0).val / 5000, by omega⟩, flush1_6 _, ?_⟩
  rw [mem_blk]
  obtain ⟨e00, e01, e10, e11, e20, e21, e30, e31, e40, e41, e50, e51, e60, e61⟩ := idx ⟨(i 0).val / 5000, by omega⟩
  intro a
  match a with
  | ⟨0, _⟩ => show win1_6.index _ (0 : Fin 2) * 5000 ≤ (i 0).val ∧ (i 0).val < win1_6.index _ (0 : Fin 2) * 5000 + 5000; simp only [] at e60; omega
  | ⟨1, _⟩ => show win1_6.index _ (1 : Fin 2) * 128 ≤ (i 1).val ∧ (i 1).val < win1_6.index _ (1 : Fin 2) * 128 + 128; omega

/-- After the launch the output array holds the layer's function of the entry arrays. -/
theorem final (c : Dev nD) :
    (dat1 V c).arrAt 6 cfg1.N
      = fullLayer (V c main_v20) (V c main_v30) (V c main_v8) (V c main_arg6) (V c main_arg7) (V c main_v31) :=
  (dat1 V c).arrAt_eq_of_cover 6 _ (fun t _ => flushed V c t) (cover)

end Cert.KernelIdeal.Region1

end
-- ==== Proof.Region2.lean ====
/-
  The projection launch, as one function of the arrays it finds on entry.

  Ten points; point t multiplies rows 5000·t … 5000·t + 4999 of the node features by the whole weight matrix and
  writes the product to the same rows of the output. The ten row blocks tile the output, so after the launch the
  output array is the product of the two arrays.
-/
import proofs.«137012_j14748917695089_2_alg».proof.Proof.Gen.KernelIdeal.Frame
import proofs.«137012_j14748917695089_2_alg».proof.Proof.Bodies
import proofs.«137012_j14748917695089_2_alg».proof.Proof.SageSpec
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies Cert.SageSpec
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Row p of point t's block is row 5000·t + p of the array. -/
def row (t : ℕ) (ht : t < 10) (p : Fin 5000) : Fin 50000 := ⟨t * 5000 + p.val, by have := p.isLt; omega⟩

theorem t_lt (t : Fin cfg2.N) : t.val < 10 := by
  have h := t.isLt
  have hN : cfg2.N = 10 := N_2
  omega

/-- The body on a block that is the rows 5000·t … of a whole array is the product's entry in that row. -/
theorem body_block (h : S50000x128.Idx → EReal) (w : S128x64.Idx → EReal)
    (x0 : FVec Ideal S5000x128 .f32) (x1 : FVec Ideal S128x64 .f32) (t : ℕ) (ht : t < 10)
    (h0 : ∀ (p : Fin 5000) (k : Fin 128), x0 (ix2 p k) = h (ix2 (row t ht p) k))
    (h1 : ∀ (k : Fin 128) (q : Fin 64), x1 (ix2 k q) = w (ix2 k q))
    (p : Fin 5000) (q : Fin 64) :
    k2_pay1 (F := Ideal) x0 x1 (ix2 p q) = proj h w (ix2 (row t ht p) q) := by
  rw [Bodies.proj_apply, SageSpec.proj_apply]
  simp only [h0, h1]

/-- The printed index maps over the grid; the output's row block first. -/
theorem idx : ∀ t : Fin cfg2.N,
    (win2_2.index t (0 : Fin 2) = t.val ∧ win2_2.index t (1 : Fin 2) = 0)
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- What point t writes back: the product of the entry arrays, read through the point's block. -/
theorem flushed (c : Dev nD) (t : Fin cfg2.N) :
    (dat2 V c).flushed 2 t = ((cfg2.win 2).blk t).view.read (Elt Ideal) (proj (V c main_v32) (V c main_arg10)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨⟨e20, e21⟩, e00, e01, e10, e11⟩ := idx t
  funext j
  obtain ⟨p, q, rfl⟩ : ∃ (p : Fin 5000) (q : Fin 64), j = ix2 p q := ⟨j 0, j 1, eq_ix2 j⟩
  refine (body_block (V c main_v32) (V c main_arg10) (iblk2 V c 0 t) (iblk2 V c 1 t) t.val (t_lt t) ?_ ?_ p q).trans ?_
  · intro p k
    show V c main_v32 (((cfg2.win 0).blk t).view.emb (ix2 p k)) = _
    refine congrArg (V c main_v32) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k q
    show V c main_arg10 (((cfg2.win 1).blk t).view.emb (ix2 k q)) = _
    refine congrArg (V c main_arg10) (funext fun a => Fin.ext ?_)
    match a with
    | ⟨0, _⟩ => show win2_1.index t (0 : Fin 2) * 128 + 1 * k.val = k.val; omega
    | ⟨1, _⟩ => show win2_1.index t (1 : Fin 2) * 64 + 1 * q.val = q.val; omega
  · show _ = proj (V c main_v32) (V c main_arg10) (((cfg2.win 2).blk t).view.emb (ix2 p q))
    refine congrArg _ (funext fun a => Fin.ext ?_)
    match a with
    | ⟨0, _⟩ => show t.val * 5000 + p.val = win2_2.index t (0 : Fin 2) * 5000 + 1 * p.val; omega
    | ⟨1, _⟩ => show q.val = win2_2.index t (1 : Fin 2) * 64 + 1 * q.val; omega

/-- An index of the output array is in point t's block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v33).slice (win2_2.rect t)).set ↔ _
  rw [View.set_slice_whole, Rect.mem_set_unit]
  exact Iff.rfl

/-- The ten row blocks tile the output: row n lies in the block of point n / 5000. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  refine ⟨⟨(i 0).val / 5000, by omega⟩, flush2_2 _, ?_⟩
  rw [mem_blk]
  have eo := (idx ⟨(i 0).val / 5000, by omega⟩).1
  simp only [] at eo
  intro a
  match a with
  | ⟨0, _⟩ => show win2_2.index _ (0 : Fin 2) * 5000 ≤ (i 0).val ∧ (i 0).val < win2_2.index _ (0 : Fin 2) * 5000 + 5000; omega
  | ⟨1, _⟩ => show win2_2.index _ (1 : Fin 2) * 64 ≤ (i 1).val ∧ (i 1).val < win2_2.index _ (1 : Fin 2) * 64 + 64; omega

/-- After the launch the output array is the product of the entry arrays. -/
theorem final (c : Dev nD) : (dat2 V c).arrAt 2 cfg2.N = proj (V c main_v32) (V c main_arg10) :=
  (dat2 V c).arrAt_eq_of_cover 2 _ (fun t _ => flushed V c t) (cover)

end Cert.KernelIdeal.Region2

end
-- ==== Proof.Region3.lean ====
/-
  The last launch, as one function of the arrays it finds on entry.

  Ten points; point t works on rows 5000·t … 5000·t + 4999 of the node features, of the projected neighbour sums,
  of the reciprocal-degree column and of the output, and on the whole weight matrix and bias row. What it writes
  back is the last layer's function of the whole arrays on its rows; the ten row blocks tile the output.
-/
import proofs.«137012_j14748917695089_2_alg».proof.Proof.Gen.KernelIdeal.Frame
import proofs.«137012_j14748917695089_2_alg».proof.Proof.Bodies
import proofs.«137012_j14748917695089_2_alg».proof.Proof.SageSpec
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies Cert.SageSpec
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Row p of point t's block is row 5000·t + p of the array. -/
def row (t : ℕ) (ht : t < 10) (p : Fin 5000) : Fin 50000 := ⟨t * 5000 + p.val, by have := p.isLt; omega⟩

theorem t_lt (t : Fin cfg3.N) : t.val < 10 := by
  have h := t.isLt
  have hN : cfg3.N = 10 := N_3
  omega

/-- The body on blocks that are the rows 5000·t … of whole arrays is the last layer's function of those arrays. -/
theorem body_block (h : S50000x128.Idx → EReal) (a : S50000x64.Idx → EReal) (iv : S50000x1.Idx → EReal)
    (ws : S128x64.Idx → EReal) (b : S1x64.Idx → EReal)
    (x0 : FVec Ideal S5000x128 .f32) (x1 : FVec Ideal S5000x64 .f32) (x2 : FVec Ideal S5000x1 .f32)
    (x3 : FVec Ideal S128x64 .f32) (x4 : FVec Ideal S1x64 .f32) (t : ℕ) (ht : t < 10)
    (h0 : ∀ (p : Fin 5000) (k : Fin 128), x0 (ix2 p k) = h (ix2 (row t ht p) k))
    (h1 : ∀ (p : Fin 5000) (q : Fin 64), x1 (ix2 p q) = a (ix2 (row t ht p) q))
    (h2 : ∀ (p : Fin 5000), x2 (ix2 p (0 : Fin 1)) = iv (ix2 (row t ht p) (0 : Fin 1)))
    (h3 : ∀ (k : Fin 128) (q : Fin 64), x3 (ix2 k q) = ws (ix2 k q))
    (h4 : ∀ (q : Fin 64), x4 (ix2 (0 : Fin 1) q) = b (ix2 (0 : Fin 1) q))
    (p : Fin 5000) (q : Fin 64) :
    k3_pay1 (F := Ideal) x0 x3 x1 x2 x4 (ix2 p q) = lastLayer h a iv ws b (ix2 (row t ht p) q) := by
  rw [last_apply, lastLayer_apply]
  simp only [h0, h1, h2, h3, h4]

/-- The printed index maps over the grid; the output's row block first. -/
theorem idx : ∀ t : Fin cfg3.N,
    (win3_5.index t (0 : Fin 2) = t.val ∧ win3_5.index t (1 : Fin 2) = 0)
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- What point t writes back: the last layer's function of the entry arrays, read through the point's block. -/
theorem flushed (c : Dev nD) (t : Fin cfg3.N) :
    (dat3 V c).flushed 5 t = ((cfg3.win 5).blk t).view.read (Elt Ideal)
      (lastLayer (V c main_v32) (V c main_v43) (V c main_v8) (V c main_arg9) (V c main_v44)) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x64) hz,
    View.ld_unit_zero (S := S5000x64) hz, View.ld_unit_zero (S := S5000x1) hz, View.ld_unit_zero (S := S1x64) hz]
  obtain ⟨⟨e50, e51⟩, e00, e01, e10, e11, e20, e21, e30, e31, e40, e41⟩ := idx t
  funext j
  obtain ⟨p, q, rfl⟩ : ∃ (p : Fin 5000) (q : Fin 64), j = ix2 p q := ⟨j 0, j 1, eq_ix2 j⟩
  refine (body_block (V c main_v32) (V c main_v43) (V c main_v8) (V c main_arg9) (V c main_v44)
    (iblk3 V c 0 t) (iblk3 V c 1 t) (iblk3 V c 2 t) (iblk3 V c 3 t) (iblk3 V c 4 t) t.val (t_lt t) ?_ ?_ ?_ ?_ ?_ p q).trans ?_
  · intro p k
    show V c main_v32 (((cfg3.win 0).blk t).view.emb (ix2 p k)) = _
    refine congrArg (V c main_v32) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · intro p q
    show V c main_v43 (((cfg3.win 1).blk t).view.emb (ix2 p q)) = _
    refine congrArg (V c main_v43) (funext fun a => Fin.ext ?_)
    match a with
    | ⟨0, _⟩ => show win3_1.index t (0 : Fin 2) * 5000 + 1 * p.val = t.val * 5000 + p.val; omega
    | ⟨1, _⟩ => show win3_1.index t (1 : Fin 2) * 64 + 1 * q.val = q.val; omega
  · intro p
    show V c main_v8 (((cfg3.win 2).blk t).view.emb (ix2 p (0 : Fin 1))) = _
    refine congrArg (V c main_v8) (funext fun a => Fin.ext ?_)
    match a with
    | ⟨0, _⟩ => show win3_2.index t (0 : Fin 2) * 5000 + 1 * p.val = t.val * 5000 + p.val; omega
    | ⟨1, _⟩ => show win3_2.index t (1 : Fin 2) * 1 + 1 * 0 = 0; omega
  · intro k q
    show V c main_arg9 (((cfg3.win 3).blk t).view.emb (ix2 k q)) = _
    refine congrArg (V c main_arg9) (funext fun a => Fin.ext ?_)
    match a with
    | ⟨0, _⟩ => show win3_3.index t (0 : Fin 2) * 128 + 1 * k.val = k.val; omega
    | ⟨1, _⟩ => show win3_3.index t (1 : Fin 2) * 64 + 1 * q.val = q.val; omega
  · intro q
    show V c main_v44 (((cfg3.win 4).blk t).view.emb (ix2 (0 : Fin 1) q)) = _
    refine congrArg (V c main_v44) (funext fun a => Fin.ext ?_)
    match a with
    | ⟨0, _⟩ => show win3_4.index t (0 : Fin 2) * 1 + 1 * 0 = 0; omega
    | ⟨1, _⟩ => show win3_4.index t (1 : Fin 2) * 64 + 1 * q.val = q.val; omega
  · show _ = lastLayer (V c main_v32) (V c main_v43) (V c main_v8) (V c main_arg9) (V c main_v44)
      (((cfg3.win 5).blk t).view.emb (ix2 p q))
    refine congrArg _ (funext fun a => Fin.ext ?_)
    match a with
    | ⟨0, _⟩ => show t.val * 5000 + p.val = win3_5.index t (0 : Fin 2) * 5000 + 1 * p.val; omega
    | ⟨1, _⟩ => show q.val = win3_5.index t (1 : Fin 2) * 64 + 1 * q.val; omega

/-- An index of the output array is in point t's block iff each coordinate is in the block's range on its axis. -/
theorem mem_blk (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v45).slice (win3_5.rect t)).set ↔ _
  rw [View.set_slice_whole, Rect.mem_set_unit]
  exact Iff.rfl

/-- The ten row blocks tile the output: row n lies in the block of point n / 5000. -/
theorem cover (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 10 := N_3
  refine ⟨⟨(i 0).val / 5000, by omega⟩, flush3_5 _, ?_⟩
  rw [mem_blk]
  have eo := (idx ⟨(i 0).val / 5000, by omega⟩).1
  simp only [] at eo
  intro a
  match a with
  | ⟨0, _⟩ => show win3_5.index _ (0 : Fin 2) * 5000 ≤ (i 0).val ∧ (i 0).val < win3_5.index _ (0 : Fin 2) * 5000 + 5000; omega
  | ⟨1, _⟩ => show win3_5.index _ (1 : Fin 2) * 64 ≤ (i 1).val ∧ (i 1).val < win3_5.index _ (1 : Fin 2) * 64 + 64; omega

/-- After the launch the output array holds the last layer's function of the entry arrays. -/
theorem final (c : Dev nD) : (dat3 V c).arrAt 5 cfg3.N
    = lastLayer (V c main_v32) (V c main_v43) (V c main_v8) (V c main_arg9) (V c main_v44) :=
  (dat3 V c).arrAt_eq_of_cover 5 _ (fun t _ => flushed V c t) (cover)

end Cert.KernelIdeal.Region3

end
-- ==== Proof.LibColumns.lean ====
/-
  Rows and columns: two facts about arrays whose columns are laid side by side.

  All arrays are rank 2. An update array of `E` rows is scattered into an array of `N` rows by a column `I` of
  row indices (one signed integer per update row, `I (e, 0)`): update element `(e, g)` is added at `(I e, g)`,
  and dropped when `I e` is not a row of the target. A gather reads the other way: result element `(e, g)` is
  the operand at `(J e, g)`, with `J e` brought into `[0, N − 1]`. Both act on each column on its own. Hence:

  * scattering (with addition, on the extended reals) two arrays laid side by side and then cutting the result
    back into its two column ranges gives the two scatters of the two arrays;
  * gathering rows of two arrays laid side by side and then cutting gives the two gathers.

  The dimension numbers are the records `rowScatter` and `rowGather` below, whose side conditions are a
  parameter: any record with the same lists is one of them by `rfl`.
-/
import Idealize.ShloMosaic.PureOps.Ideal
import Idealize.ShloMosaic.PureOps.ShapeOps
import Idealize.ShloMosaic.PureOps.Dims
import Idealize.ShloMosaic.PureOps.Contract
import Idealize.ShloMosaic.Lib.ValueIdx
import Idealize.ShloMosaic.Lib.Pipeline.Value

noncomputable section

open scoped BigOperators

namespace Cert.LibColumns

open Idealize.ShloMosaic Idealize.ShloMosaic.ValueIdx

/-! ## Scattering rows -/

/-- The dimension numbers of a row scatter: updates `[E, C]` go into an operand `[N, C]` at the rows named by
    scatter indices `[E, 1]` — the updates' axis 1 is the window axis, the operand's axis 0 is inserted and is the
    one the index names, the index vector lies along axis 1 of the indices. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (I : IVec ⟨2, ![E, 1]⟩ w)

/-- On the row axis the window of update `(e, g)` starts at the signed value of the index `I (e, 0)`. -/
theorem rowScatter_start_row (e : Fin E) (g : Fin C) :
    (rowScatter N E C wf).start (ix2 e g) I 0 = (I (ix2 e (0 : Fin 1))).toInt := by
  unfold ScatterDims.start
  rw [dif_pos (show (0 : Fin 2) ∈ (rowScatter N E C wf).scatterDimsToOperandDims from List.mem_singleton.mpr rfl)]
  congr 2
  funext b
  refine Fin.ext ?_
  match b with
  | ⟨0, _⟩ => rfl
  | ⟨1, _⟩ => rfl

/-- On the column axis every window starts at 0. -/
theorem rowScatter_start_col (e : Fin E) (g : Fin C) :
    (rowScatter N E C wf).start (ix2 e g) I 1 = 0 := by
  unfold ScatterDims.start
  rw [dif_neg (show (1 : Fin 2) ∉ ([0] : List (Fin 2)) by simp)]

/-- The row axis is inserted: the window coordinate there is 0. -/
theorem rowScatter_window_row (e : Fin E) (g : Fin C) :
    (rowScatter N E C wf).window (ix2 e g) 0 = 0 := by
  unfold ScatterDims.window
  rw [dif_neg (show (0 : Fin 2) ∉ Shape.kept ⟨2, ![N, C]⟩ [0] by simp [Shape.kept])]

/-- On the column axis the window coordinate of update `(e, g)` is `g`. -/
theorem rowScatter_window_col (e : Fin E) (g : Fin C) :
    (rowScatter N E C wf).window (ix2 e g) 1 = g.val := by
  unfold ScatterDims.window
  rw [dif_pos (show (1 : Fin 2) ∈ Shape.kept ⟨2, ![N, C]⟩ [0] by simp [Shape.kept])]
  rfl

/-- Update `(e, g)` lands on `(n, f)` exactly when its index is `n` and `g = f`. -/
theorem rowScatter_resultIdx?_eq_some_iff (e : Fin E) (g : Fin C) (n : Fin N) (f : Fin C) :
    (rowScatter N E C wf).resultIdx? (ix2 e g) I = some (ix2 n f)
      ↔ (I (ix2 e (0 : Fin 1))).toInt = (n.val : Int) ∧ g = f := by
  have hs0 := rowScatter_start_row wf I e g
  have hs1 := rowScatter_start_col wf I e g
  have hw0 := rowScatter_window_row wf e g
  have hw1 := rowScatter_window_col wf e g
  unfold ScatterDims.resultIdx?
  by_cases h : ∀ a : Fin 2, 0 ≤ (rowScatter N E C wf).start (ix2 e g) I a + ((rowScatter N E C wf).window (ix2 e g) a : Int)
      ∧ (rowScatter N E C wf).start (ix2 e g) I a + ((rowScatter N E C wf).window (ix2 e g) a : Int)
        < ((⟨2, ![N, C]⟩ : Shape).size a : Int)
  · rw [dif_pos h]
    have h0 := h 0
    rw [hs0, hw0] at h0
    constructor
    · intro hh
      have hh' := Option.some.inj hh
      have e0 := congrArg (fun k => (k 0).val) hh'
      have e1 := congrArg (fun k => (k 1).val) hh'
      simp only [hs0, hw0, hs1, hw1] at e0 e1
      refine ⟨?_, Fin.ext ?_⟩
      · have : ((I (ix2 e (0 : Fin 1))).toInt + ((0 : Nat) : Int)).toNat = n.val := e0
        omega
      · have : ((0 : Int) + (g.val : Int)).toNat = f.val := e1
        omega
    · rintro ⟨ht, rfl⟩
      congr 1
      funext a
      refine Fin.ext ?_
      match a with
      | ⟨0, _⟩ =>
        show ((rowScatter N E C wf).start (ix2 e g) I 0 + ((rowScatter N E C wf).window (ix2 e g) 0 : Int)).toNat = n.val
        rw [hs0, hw0]; omega
      | ⟨1, _⟩ =>
        show ((rowScatter N E C wf).start (ix2 e g) I 1 + ((rowScatter N E C wf).window (ix2 e g) 1 : Int)).toNat = g.val
        rw [hs1, hw1]; omega
  · rw [dif_neg h]
    constructor
    · intro hh; exact absurd hh (by simp)
    · rintro ⟨ht, rfl⟩
      exfalso
      apply h
      intro a
      match a with
      | ⟨0, _⟩ =>
        show 0 ≤ (rowScatter N E C wf).start (ix2 e g) I 0 + ((rowScatter N E C wf).window (ix2 e g) 0 : Int)
          ∧ (rowScatter N E C wf).start (ix2 e g) I 0 + ((rowScatter N E C wf).window (ix2 e g) 0 : Int) < (N : Int)
        rw [hs0, hw0]; have := n.isLt; omega
      | ⟨1, _⟩ =>
        show 0 ≤ (rowScatter N E C wf).start (ix2 e g) I 1 + ((rowScatter N E C wf).window (ix2 e g) 1 : Int)
          ∧ (rowScatter N E C wf).start (ix2 e g) I 1 + ((rowScatter N E C wf).window (ix2 e g) 1 : Int) < (C : Int)
        rw [hs1, hw1]; have := g.isLt; omega

/-- THE ROW SCATTER-ADD AT `(n, f)`: the operand's element plus the sum, over the update rows `e` whose index is
    `n`, of the update's element `(e, f)`. -/
theorem hostScatterAdd_rows_apply (X : (⟨2, ![N, C]⟩ : Shape).Idx → EReal) (U : (⟨2, ![E, C]⟩ : Shape).Idx → EReal)
    (n : Fin N) (f : Fin C) :
    Ideal.hostScatterAdd (rowScatter N E C wf) X I U (ix2 n f)
      = X (ix2 n f) + ∑ e : Fin E, if (I (ix2 e (0 : Fin 1))).toInt = (n.val : Int) then U (ix2 e f) else 0 := by
  unfold Ideal.hostScatterAdd
  congr 1
  rw [Finset.sum_filter, sum_idx2]
  refine Finset.sum_congr rfl fun e _ => ?_
  simp only [rowScatter_resultIdx?_eq_some_iff]
  by_cases ht : (I (ix2 e (0 : Fin 1))).toInt = (n.val : Int)
  · simp [ht]
  · simp [ht]

/-- The same for the host operation at the ideal instance, at any float format. -/
theorem scatterAdd_rows_apply {φ : FTy} (X : FVec Ideal ⟨2, ![N, C]⟩ φ) (U : FVec Ideal ⟨2, ![E, C]⟩ φ)
    (n : Fin N) (f : Fin C) :
    Host.scatterAdd (rowScatter N E C wf) X I U (ix2 n f)
      = X (ix2 n f) + ∑ e : Fin E, if (I (ix2 e (0 : Fin 1))).toInt = (n.val : Int) then U (ix2 e f) else 0 :=
  hostScatterAdd_rows_apply wf I X U n f

end Scatter

/-! ## A scatter-add of two arrays side by side, cut back into its column ranges -/

section ScatterColumns
variable {N E C D T w : Nat} {φ : FTy}

/-- The first `C` columns of the scatter-add of `[A | B]` (columns `C` and `D` wide) into `X` are the scatter-add
    of `A` into the first `C` columns of `X`: the sum for `(n, f)`, `f < C`, runs over the update rows whose
    index is `n` and reads column `f` of `[A | B]`, which is column `f` of `A`. -/
theorem slice_scatterAdd_concat_left
    (wfT : ScatterDims.WF ⟨2, ![N, T]⟩ ⟨2, ![E, 1]⟩ ⟨2, ![E, T]⟩ [1] [0] [0] 1)
    (wfC : ScatterDims.WF ⟨2, ![N, C]⟩ ⟨2, ![E, 1]⟩ ⟨2, ![E, C]⟩ [1] [0] [0] 1)
    (hc : Shape.Concatenates [(⟨2, ![E, C]⟩ : Shape), ⟨2, ![E, D]⟩] ⟨2, ![E, T]⟩ 1)
    (hs : (⟨2, ![N, T]⟩ : Shape).Slices ![0, 0] ⟨2, ![N, C]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, C]⟩ ![0, 0]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E C wfC) (extractStridedSlice ⟨2, ![N, C]⟩ ![0, 0] X hs) I A := by
  funext i
  obtain ⟨n, f, rfl⟩ : ∃ (n : Fin N) (f : Fin C), i = ix2 n f := ⟨i 0, i 1, eq_ix2 i⟩
  have hCT : C ≤ T := by have := hs.2 1; simpa using this
  have hf : f.val < T := lt_of_lt_of_le f.isLt hCT
  have hk : ∀ a : Fin 2, ((ix2 n (⟨f.val, hf⟩ : Fin T) : (⟨2, ![N, T]⟩ : Shape).Idx) a).val
      = (![0, 0] : Fin 2 → Nat) a + ((ix2 n f : (⟨2, ![N, C]⟩ : Shape).Idx) (a.cast hs.1.symm)).val := fun a => by
    match a with
    | ⟨0, _⟩ => exact (Nat.zero_add _).symm
    | ⟨1, _⟩ => exact (Nat.zero_add _).symm
  rw [extractStridedSlice_apply ![0, 0] _ hs (ix2 n f) (ix2 n (⟨f.val, hf⟩ : Fin T)) hk,
    scatterAdd_rows_apply, scatterAdd_rows_apply,
    extractStridedSlice_apply ![0, 0] X hs (ix2 n f) (ix2 n (⟨f.val, hf⟩ : Fin T)) hk]
  congr 1
  refine Finset.sum_congr rfl fun e _ => ?_
  rw [concatenate_pair_apply_left (t := ⟨2, ![E, T]⟩) (s₁ := ⟨2, ![E, C]⟩) (s₂ := ⟨2, ![E, D]⟩) (1 : Fin 2) A B hc
    (ix2 e (⟨f.val, hf⟩ : Fin T)) rfl (ix2 e f) (fun b => by
      match b with
      | ⟨0, _⟩ => rfl
      | ⟨1, _⟩ => rfl)]

/-- The `D` columns from column `C` on of the scatter-add of `[A | B]` into `X` are the scatter-add of `B` into
    those columns of `X`: column `C + f` of `[A | B]` is column `f` of `B`. -/
theorem slice_scatterAdd_concat_right
    (wfT : ScatterDims.WF ⟨2, ![N, T]⟩ ⟨2, ![E, 1]⟩ ⟨2, ![E, T]⟩ [1] [0] [0] 1)
    (wfD : ScatterDims.WF ⟨2, ![N, D]⟩ ⟨2, ![E, 1]⟩ ⟨2, ![E, D]⟩ [1] [0] [0] 1)
    (hc : Shape.Concatenates [(⟨2, ![E, C]⟩ : Shape), ⟨2, ![E, D]⟩] ⟨2, ![E, T]⟩ 1)
    (hs : (⟨2, ![N, T]⟩ : Shape).Slices ![0, C] ⟨2, ![N, D]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, D]⟩ ![0, C]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E D wfD) (extractStridedSlice ⟨2, ![N, D]⟩ ![0, C] X hs) I B := by
  funext i
  obtain ⟨n, f, rfl⟩ : ∃ (n : Fin N) (f : Fin D), i = ix2 n f := ⟨i 0, i 1, eq_ix2 i⟩
  have hCT : C + D ≤ T := by have := hs.2 1; simpa using this
  have hf : C + f.val < T := by have := f.isLt; omega
  have hk : ∀ a : Fin 2, ((ix2 n (⟨C + f.val, hf⟩ : Fin T) : (⟨2, ![N, T]⟩ : Shape).Idx) a).val
      = (![0, C] : Fin 2 → Nat) a + ((ix2 n f : (⟨2, ![N, D]⟩ : Shape).Idx) (a.cast hs.1.symm)).val := fun a => by
    match a with
    | ⟨0, _⟩ => exact (Nat.zero_add _).symm
    | ⟨1, _⟩ => rfl
  rw [extractStridedSlice_apply ![0, C] _ hs (ix2 n f) (ix2 n (⟨C + f.val, hf⟩ : Fin T)) hk,
    scatterAdd_rows_apply, scatterAdd_rows_apply,
    extractStridedSlice_apply ![0, C] X hs (ix2 n f) (ix2 n (⟨C + f.val, hf⟩ : Fin T)) hk]
  congr 1
  refine Finset.sum_congr rfl fun e _ => ?_
  rw [concatenate_pair_apply_right (t := ⟨2, ![E, T]⟩) (s₁ := ⟨2, ![E, C]⟩) (s₂ := ⟨2, ![E, D]⟩) (1 : Fin 2) A B hc
    (ix2 e (⟨C + f.val, hf⟩ : Fin T)) rfl rfl (ix2 e f) (fun b hb => by
      match b with
      | ⟨0, _⟩ => rfl
      | ⟨1, _⟩ => exact absurd rfl hb) (Nat.add_comm _ _)]

/-- A block cut out of a scalar spread over a whole array is the scalar spread over the block (the all-zero
    array a scatter-add starts from is of this form). -/
theorem extractStridedSlice_broadcastInDim_scalar {α : Type} {s t : Shape} (off : Fin s.rank → Nat) (hs : s.Slices off t)
    (dims : Fin (⟨0, ![]⟩ : Shape).rank → Fin s.rank) (dims' : Fin (⟨0, ![]⟩ : Shape).rank → Fin t.rank)
    (hb : (⟨0, ![]⟩ : Shape).BroadcastsInDim s dims) (hb' : (⟨0, ![]⟩ : Shape).BroadcastsInDim t dims')
    (z : (⟨0, ![]⟩ : Shape).Idx → α) :
    extractStridedSlice t off (broadcastInDim s dims hb z) hs = broadcastInDim t dims' hb' z := by
  funext j
  unfold extractStridedSlice broadcastInDim
  exact congrArg z (funext fun a => a.elim0)

end ScatterColumns

/-! ## Gathering rows -/

/-- The dimension numbers of a row gather: result `[E, C]` reads an operand `[N, C]` at the rows named by start
    indices `[E, 1]` — the result's axis 1 is the offset axis, the operand's axis 0 is collapsed and is the one the
    index names, slices are one row of `C` columns, the index vector lies along axis 1 of the indices. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}
  (wf : GatherDims.WF ⟨2, ![N, C]⟩ ⟨2, ![E, 1]⟩ ⟨2, ![E, C]⟩ [1] [0] [] [0] [] 1 ![1, C])
  (J : IVec ⟨2, ![E, 1]⟩ w)

/-- The row result row `e` reads: the start index `J (e, 0)` as a signed integer, brought into `[0, N − 1]`. -/
def gatherRow (hN : 0 < N) (e : Fin E) : Fin N :=
  ⟨min (J (ix2 e (0 : Fin 1))).toInt.toNat (N - 1), by omega⟩

/-- The operand index of result `(e, f)` is `(gatherRow e, f)`. -/
theorem rowGather_operandIdx (hN : 0 < N) (e : Fin E) (f : Fin C) :
    (rowGather N E C wf).operandIdx (ix2 e f) J = ix2 (gatherRow J hN e) f := by
  funext a
  refine Fin.ext ?_
  match a with
  | ⟨0, _⟩ =>
    show (rowGather N E C wf).start (ix2 e f) J 0 + (rowGather N E C wf).batchCoord (ix2 e f) 0
      + (rowGather N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e f) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e f) J 1 + (rowGather N E C wf).batchCoord (ix2 e f) 1
      + (rowGather N E C wf).offCoord (ix2 e f) 1 = f.val
    rw [GatherDims.batchCoord_eq_zero _ _ _ List.not_mem_nil]
    have hst : (rowGather N E C wf).start (ix2 e f) J 1 = 0 := by
      unfold GatherDims.start
      rw [dif_neg (show (1 : Fin 2) ∉ ([0] : List (Fin 2)) by simp)]
    have hoff : (rowGather N E C wf).offCoord (ix2 e f) 1 = f.val := by
      unfold GatherDims.offCoord
      rw [dif_pos ((GatherDims.mem_sKept _ _).mpr ⟨by simp, List.not_mem_nil⟩)]
      rfl
    rw [hst, hoff]; omega

/-- THE ROW GATHER AT `(e, f)`: the operand at `(gatherRow e, f)`. -/
theorem gather_rows_apply (hN : 0 < N) (x : (⟨2, ![N, C]⟩ : Shape).Idx → α) (e : Fin E) (f : Fin C) :
    Host.gather (rowGather N E C wf) x J (ix2 e f) = x (ix2 (gatherRow J hN e) f) := by
  unfold Host.gather
  rw [rowGather_operandIdx wf J hN e f]

end Gather

/-! ## A row gather of two arrays side by side, cut back into its column ranges -/

section GatherColumns
variable {α : Type} {N E C D T w : Nat}

/-- The first `C` columns of the row gather of `[P | Q]` are the row gather of `P`: both read row `gatherRow e`
    (the operands have the same number of rows, so the start index is brought into the same range). -/
theorem slice_gather_concat_left (hN : 0 < N)
    (wfT : GatherDims.WF ⟨2, ![N, T]⟩ ⟨2, ![E, 1]⟩ ⟨2, ![E, T]⟩ [1] [0] [] [0] [] 1 ![1, T])
    (wfC : GatherDims.WF ⟨2, ![N, C]⟩ ⟨2, ![E, 1]⟩ ⟨2, ![E, C]⟩ [1] [0] [] [0] [] 1 ![1, C])
    (hc : Shape.Concatenates [(⟨2, ![N, C]⟩ : Shape), ⟨2, ![N, D]⟩] ⟨2, ![N, T]⟩ 1)
    (hs : (⟨2, ![E, T]⟩ : Shape).Slices ![0, 0] ⟨2, ![E, C]⟩)
    (P : (⟨2, ![N, C]⟩ : Shape).Idx → α) (Q : (⟨2, ![N, D]⟩ : Shape).Idx → α) (J : IVec ⟨2, ![E, 1]⟩ w) :
    extractStridedSlice ⟨2, ![E, C]⟩ ![0, 0]
        (Host.gather (rowGather N E T wfT)
          (concatenate ⟨2, ![N, T]⟩ 1 [⟨⟨2, ![N, C]⟩, P⟩, ⟨⟨2, ![N, D]⟩, Q⟩] hc) J) hs
      = Host.gather (rowGather N E C wfC) P J := by
  funext i
  obtain ⟨e, f, rfl⟩ : ∃ (e : Fin E) (f : Fin C), i = ix2 e f := ⟨i 0, i 1, eq_ix2 i⟩
  have hCT : C ≤ T := by have := hs.2 1; simpa using this
  have hf : f.val < T := lt_of_lt_of_le f.isLt hCT
  rw [extractStridedSlice_apply ![0, 0] _ hs (ix2 e f) (ix2 e (⟨f.val, hf⟩ : Fin T)) (fun a => by
      match a with
      | ⟨0, _⟩ => exact (Nat.zero_add _).symm
      | ⟨1, _⟩ => exact (Nat.zero_add _).symm),
    gather_rows_apply wfT J hN, gather_rows_apply wfC J hN]
  exact concatenate_pair_apply_left (t := ⟨2, ![N, T]⟩) (s₁ := ⟨2, ![N, C]⟩) (s₂ := ⟨2, ![N, D]⟩) (1 : Fin 2) P Q hc
    (ix2 (gatherRow J hN e) (⟨f.val, hf⟩ : Fin T)) rfl (ix2 (gatherRow J hN e) f) (fun b => by
      match b with
      | ⟨0, _⟩ => rfl
      | ⟨1, _⟩ => rfl)

/-- The `D` columns from column `C` on of the row gather of `[P | Q]` are the row gather of `Q`. -/
theorem slice_gather_concat_right (hN : 0 < N)
    (wfT : GatherDims.WF ⟨2, ![N, T]⟩ ⟨2, ![E, 1]⟩ ⟨2, ![E, T]⟩ [1] [0] [] [0] [] 1 ![1, T])
    (wfD : GatherDims.WF ⟨2, ![N, D]⟩ ⟨2, ![E, 1]⟩ ⟨2, ![E, D]⟩ [1] [0] [] [0] [] 1 ![1, D])
    (hc : Shape.Concatenates [(⟨2, ![N, C]⟩ : Shape), ⟨2, ![N, D]⟩] ⟨2, ![N, T]⟩ 1)
    (hs : (⟨2, ![E, T]⟩ : Shape).Slices ![0, C] ⟨2, ![E, D]⟩)
    (P : (⟨2, ![N, C]⟩ : Shape).Idx → α) (Q : (⟨2, ![N, D]⟩ : Shape).Idx → α) (J : IVec ⟨2, ![E, 1]⟩ w) :
    extractStridedSlice ⟨2, ![E, D]⟩ ![0, C]
        (Host.gather (rowGather N E T wfT)
          (concatenate ⟨2, ![N, T]⟩ 1 [⟨⟨2, ![N, C]⟩, P⟩, ⟨⟨2, ![N, D]⟩, Q⟩] hc) J) hs
      = Host.gather (rowGather N E D wfD) Q J := by
  funext i
  obtain ⟨e, f, rfl⟩ : ∃ (e : Fin E) (f : Fin D), i = ix2 e f := ⟨i 0, i 1, eq_ix2 i⟩
  have hCT : C + D ≤ T := by have := hs.2 1; simpa using this
  have hf : C + f.val < T := by have := f.isLt; omega
  rw [extractStridedSlice_apply ![0, C] _ hs (ix2 e f) (ix2 e (⟨C + f.val, hf⟩ : Fin T)) (fun a => by
      match a with
      | ⟨0, _⟩ => exact (Nat.zero_add _).symm
      | ⟨1, _⟩ => rfl),
    gather_rows_apply wfT J hN, gather_rows_apply wfD J hN]
  exact concatenate_pair_apply_right (t := ⟨2, ![N, T]⟩) (s₁ := ⟨2, ![N, C]⟩) (s₂ := ⟨2, ![N, D]⟩) (1 : Fin 2) P Q hc
    (ix2 (gatherRow J hN e) (⟨C + f.val, hf⟩ : Fin T)) rfl rfl (ix2 (gatherRow J hN e) f) (fun b hb => by
      match b with
      | ⟨0, _⟩ => rfl
      | ⟨1, _⟩ => exact absurd rfl hb) (Nat.add_comm _ _)

end GatherColumns

/-! ## Format changes around a gather, at the ideal instance -/

section Formats
variable {s si t : Shape} {w : Nat} {φ ψ : FTy}

/-- On the extended reals a narrowing and a widening of the format are the identity, so a gather of a narrowed
    array, widened again, is the gather of the array. -/
theorem extf_gather_truncf (d : GatherDims s si t) (X : FVec Ideal s φ) (J : IVec si w)
    (h : ψ.bits < φ.bits) (h' : ψ.bits < φ.bits) :
    extf φ (Host.gather d (truncf ψ X h) J) h' = Host.gather d X J := rfl

/-- A narrowing of the format is the identity on the extended reals. -/
theorem truncf_eq (X : FVec Ideal s φ) (h : ψ.bits < φ.bits) : (truncf ψ X h : FVec Ideal s ψ) = X := rfl

/-- A widening of the format is the identity on the extended reals. -/
theorem extf_eq (X : FVec Ideal s φ) (h : φ.bits < ψ.bits) : (extf ψ X h : FVec Ideal s ψ) = X := rfl

end Formats

end Cert.LibColumns

end
-- ==== Proof.LibAggregate.lean ====
/-
  A graph aggregation read at an entry. The updates of an accumulating row scatter are the rows a row gather fetched,
  each scaled by its edge's weight (a column stretched along the rows' length); the scatter starts from an array of zeros.
  At entry (n, f) the result is the sum, over the edges whose scatter index is n, of the edge's weight times the operand's
  entry in the gathered row and column f. For any extents and any index width.
-/
import proofs.«137012_j14748917695089_2_alg».proof.Proof.LibColumns
import proofs.«137012_j14748917695089_2_alg».proof.Proof.LibColumn
import Idealize.ShloMosaic.PureOps.Ideal.Laws

noncomputable section

open scoped BigOperators

namespace Cert.LibAggregate

open Idealize.ShloMosaic Idealize.ShloMosaic.ValueIdx Cert.LibColumns

variable {N E C w : Nat}

/-- THE AGGREGATION AT (n, f). -/
theorem aggregate_apply (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hb : (⟨2, ![E, 1]⟩ : Shape).BroadcastsInDim ⟨2, ![E, C]⟩ ![0, 1])
    (Z : FVec Ideal ⟨2, ![N, C]⟩ .f32) (hZ : ∀ i, Z i = 0)
    (A : FVec Ideal ⟨2, ![E, 1]⟩ .f32) (J I : IVec ⟨2, ![E, 1]⟩ w) (Y : FVec Ideal ⟨2, ![N, C]⟩ .f32)
    (n : Fin N) (f : Fin C) :
    Host.scatterAdd (rowScatter N E C wfs) Z I
        (mulf (broadcastInDim ⟨2, ![E, C]⟩ ![0, 1] hb A) (Host.gather (rowGather N E C wfg) Y J)) (ix2 n f)
      = ∑ e : Fin E, if (I (ix2 e (0 : Fin 1))).toInt = (n.val : Int)
          then A (ix2 e (0 : Fin 1)) * Y (ix2 (gatherRow J hN e) f) else 0 := by
  rw [scatterAdd_rows_apply, hZ, zero_add]
  refine Finset.sum_congr rfl fun e _ => ?_
  rw [mulf_apply, Cert.LibColumn.bcastInDim_a1_ab_apply, gather_rows_apply wfg J hN]

/-- A scalar zero word spread over any shape is zero everywhere. -/
theorem zeros_apply {t : Shape} (h : (⟨0, ![]⟩ : Shape).BroadcastsInDim t (![] : Fin 0 → Fin t.rank)) (i : t.Idx) :
    broadcastInDim t ![] h (constant (F := Ideal) ⟨0, ![]⟩ .f32 0x00000000#32) i = 0 := by
  rw [Cert.LibColumn.bcastInDim_scalar_apply _ h i ix0, constant_apply, Ideal.ofBits_zero_f32]

end Cert.LibAggregate

end
-- ==== Proof.LibFinite.lean ====
import Idealize.ShloMosaic.PureOps.Ideal
import Idealize.ShloMosaic.PureOps.Ideal.Laws
import Idealize.ShloMosaic.Lib.ValueIdx

/-!
  Extended reals that are real numbers, and the operations that keep them so.

  The ideal float values are extended reals. An entry that is the coercion of a real number (neither infinity) stays one
  under sums, products, maxima, finite sums, real powers, gathers, accumulating scatters and selections; and over such
  entries a dot product may be scaled inside the sum.
-/

noncomputable section

namespace Idealize.ShloMosaic.LibFinite

open Idealize.ShloMosaic Idealize.ShloMosaic.ValueIdx
open scoped BigOperators

/-- An extended real that is a real number: the coercion of some `r : ℝ`, so neither infinity. -/
def IsReal (x : EReal) : Prop := ∃ r : ℝ, x = (r : EReal)

/-- Zero is a real number. -/
theorem IsReal.zero : IsReal (0 : EReal) := ⟨0, rfl⟩

/-- The coercion of a real number is one. -/
theorem IsReal.coe (r : ℝ) : IsReal (r : EReal) := ⟨r, rfl⟩

/-- The sum of two real numbers is real. -/
theorem IsReal.add (a b : EReal) : IsReal a → IsReal b → IsReal (a + b) := by
  rintro ⟨x, rfl⟩ ⟨y, rfl⟩; exact ⟨x + y, (EReal.coe_add x y).symm⟩

/-- The product of two real numbers is real. -/
theorem IsReal.mul (a b : EReal) : IsReal a → IsReal b → IsReal (a * b) := by
  rintro ⟨x, rfl⟩ ⟨y, rfl⟩; exact ⟨x * y, (EReal.coe_mul x y).symm⟩

/-- The larger of two real numbers is real. -/
theorem IsReal.max (a b : EReal) : IsReal a → IsReal b → IsReal (Max.max a b) := by
  intro ha hb
  rcases le_total a b with h | h
  · rw [max_eq_right h]; exact hb
  · rw [max_eq_left h]; exact ha

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add _ _ (h a (Finset.mem_insert_self a s)) (ih fun i hi => h i (Finset.mem_insert_of_mem hi))

/-- A binary pattern whose exponent field is not all ones denotes a real number (a zero, a subnormal or a normal). -/
theorem isReal_ieee_of_exponent_ne (e m : ℕ) {w : ℕ} (b : BitVec w) (h : (b.extractLsb' m e).toNat ≠ 2 ^ e - 1) :
    IsReal (Ideal.ieee e m b) := by
  unfold Ideal.ieee
  dsimp only
  rw [if_neg h]
  split <;> exact ⟨_, rfl⟩

/-- The single-precision word of all zero bits denotes a real number (zero). -/
theorem isReal_ofBits_zero : IsReal (Ideal.ofBits .f32 0x00000000#32) := by
  rw [Ideal.ofBits_zero_f32]; exact IsReal.zero

/-- The single-precision word `0x3F800000` (one) denotes a real number. -/
theorem isReal_ofBits_one : IsReal (Ideal.ofBits .f32 0x3F800000#32) := by
  show IsReal (Ideal.ieee 8 23 (0x3F800000#32 : BitVec 32))
  exact isReal_ieee_of_exponent_ne 8 23 (0x3F800000#32 : BitVec 32) (by decide)

/-- The single-precision word `0xBF000000` (minus one half) denotes a real number. -/
theorem isReal_ofBits_neg_half : IsReal (Ideal.ofBits .f32 0xBF000000#32) := by
  show IsReal (Ideal.ieee 8 23 (0xBF000000#32 : BitVec 32))
  exact isReal_ieee_of_exponent_ne 8 23 (0xBF000000#32 : BitVec 32) (by decide)

/-- The power of a real base to a real exponent is real (the real power function). -/
theorem isReal_pow (x y : EReal) : IsReal x → IsReal y → IsReal (Ideal.pow x y) := by
  rintro ⟨a, rfl⟩ ⟨b, rfl⟩; exact ⟨Real.rpow a b, rfl⟩

/-- An accumulating scatter of real updates into a real array is real at every entry: the entry plus a finite sum of
    the updates that land on it. -/
theorem isReal_scatterAdd {s si su : Shape} (d : ScatterDims s si su) {w : Nat} (x : s.Idx → EReal) (idx : IVec si w)
    (u : su.Idx → EReal) (hx : ∀ i, IsReal (x i)) (hu : ∀ j, IsReal (u j)) (i : s.Idx) :
    IsReal (Host.scatterAdd (F := Ideal) (φ := .f32) d x idx u i) := by
  show IsReal (x i + ∑ j ∈ Finset.univ.filter (fun j => d.resultIdx? j idx = some i), u j)
  exact IsReal.add _ _ (hx i) (IsReal.sum _ _ fun j _ => hu j)

/-- A gather of a real array is real at every entry: each entry of the result is an entry of the operand. -/
theorem isReal_gather {s si t : Shape} {w : Nat} (d : GatherDims s si t) (x : s.Idx → EReal) (idx : IVec si w)
    (hx : ∀ i, IsReal (x i)) (j : t.Idx) : IsReal (Host.gather d x idx j) := hx _

/-- A selection between two real entries is real. -/
theorem isReal_select {s : Shape} (c : IVec s 1) (a b : s.Idx → EReal) (i : s.Idx) :
    IsReal (a i) → IsReal (b i) → IsReal (select c a b i) := by
  intro ha hb
  rw [select_apply]
  unfold Scalar.select
  split <;> assumption

/-- Over real entries a dot product scaled by a real number is the dot product of the scaled first factor:
    (∑ₖ aₖ·bₖ)·c = ∑ₖ (aₖ·c)·bₖ. -/
theorem dot_scale {K : ℕ} (a b : Fin K → EReal) (c : EReal) (ha : ∀ k, IsReal (a k)) (hb : ∀ k, IsReal (b k))
    (hc : IsReal c) : (∑ k, a k * b k) * c = ∑ k, (a k * c) * b k := by
  choose a' ha' using ha
  choose b' hb' using hb
  obtain ⟨c', rfl⟩ := hc
  have e1 : ∀ k, a k * b k = ((a' k * b' k : ℝ) : EReal) := fun k => by rw [ha' k, hb' k, EReal.coe_mul]
  have e2 : ∀ k, (a k * (c' : EReal)) * b k = ((a' k * c' * b' k : ℝ) : EReal) := fun k => by
    rw [ha' k, hb' k, EReal.coe_mul, EReal.coe_mul]
  simp only [e1, e2]
  rw [← coe_sum, ← coe_sum, ← EReal.coe_mul, Finset.sum_mul]
  congr 1
  exact Finset.sum_congr rfl fun k _ => by ring

/-- A dot product of real entries is real. -/
theorem isReal_dot {K : ℕ} (a b : Fin K → EReal) : (∀ k, IsReal (a k)) → (∀ k, IsReal (b k)) →
    IsReal (∑ k, a k * b k) :=
  fun ha hb => IsReal.sum _ _ fun k _ => IsReal.mul _ _ (ha k) (hb k)

end Idealize.ShloMosaic.LibFinite

end
-- ==== Proof.SageLaws.lean ====
/-
  The algebra of one mean-aggregation layer on the extended reals.

  A node's neighbour mean is its neighbour sum divided by the clamped in-degree d ≥ 1. Dividing by a
  nonzero d is multiplying by the quotient 1 / d, on every extended real (div_eq_mul_one_div), so a
  program that divides each neighbour sum and one that multiplies it by a precomputed 1 / d agree entry
  by entry, whatever the sums hold.

  Moving a projection W in front of the aggregation is the law
      (∑_{e ∈ s} ∑_k h(e,k) · w(k)) · c  =  ∑_k ((∑_{e ∈ s} h(e,k)) · c) · w(k),
  an exchange of two finite sums and distributivity of c and w(k) over them. On the extended reals
  distributivity fails at the infinities, so the law is proved for REAL entries (sum_proj_scale).
-/
import Mathlib
import Idealize.ShloMosaic.PureOps.Ideal
import proofs.«137012_j14748917695089_2_alg».proof.Proof.LibFinite

noncomputable section

namespace Cert.SageLaws

open Idealize.ShloMosaic Idealize.ShloMosaic.LibFinite
open scoped BigOperators

/-- Division by a nonzero extended real is multiplication by its reciprocal quotient 1 / d. -/
theorem div_eq_mul_one_div (a d : EReal) (hd : d ≠ 0) : Ideal.div a d = a * Ideal.div 1 d := by
  unfold Ideal.div
  rw [if_neg hd, if_neg hd, one_mul]

/-- A maximum with 1 is not zero. -/
theorem max_one_ne_zero (x : EReal) : max x 1 ≠ 0 :=
  ne_of_gt (lt_of_lt_of_le zero_lt_one (le_max_right x 1))

/-- The reciprocal quotient of a nonzero real is a real. -/
theorem isReal_one_div (d : EReal) (hd : IsReal d) (h0 : d ≠ 0) : IsReal (Ideal.div 1 d) := by
  obtain ⟨r, rfl⟩ := hd
  have hr : r ≠ 0 := fun h => h0 (by rw [h]; rfl)
  rw [Ideal.div_coe hr, one_mul]
  exact ⟨1 / r, rfl⟩

/-- The projection law over a finite set s of edges, all entries real: the scaled sum over the edges of
    projected rows is the projection of the scaled sum of the rows. -/
theorem sum_proj_scale {ι : Type*} {K : ℕ} (s : Finset ι) (h : ι → Fin K → EReal) (w : Fin K → EReal) (c : EReal)
    (hh : ∀ e k, IsReal (h e k)) (hw : ∀ k, IsReal (w k)) (hc : IsReal c) :
    (∑ e ∈ s, ∑ k, h e k * w k) * c = ∑ k, ((∑ e ∈ s, h e k) * c) * w k := by
  choose hr hhr using hh
  choose wr hwr using hw
  obtain ⟨cr, rfl⟩ := hc
  simp only [hhr, hwr, ← EReal.coe_mul, ← coe_sum]
  refine congrArg (fun x : ℝ => (x : EReal)) ?_
  calc (∑ e ∈ s, ∑ k, hr e k * wr k) * cr
      = ∑ e ∈ s, ∑ k, hr e k * wr k * cr := by
        rw [Finset.sum_mul]; exact Finset.sum_congr rfl fun e _ => Finset.sum_mul _ _ _
    _ = ∑ k, ∑ e ∈ s, hr e k * wr k * cr := Finset.sum_comm
    _ = ∑ k, ((∑ e ∈ s, hr e k) * cr) * wr k := by
        refine Finset.sum_congr rfl fun k _ => ?_
        rw [Finset.sum_mul, Finset.sum_mul]
        exact Finset.sum_congr rfl fun e _ => by ring

/-- A sum over all edges of entries selected by a condition is the sum over the selected edges. -/
theorem sum_ite_eq_sum_filter {E : ℕ} (sel : Fin E → Prop) [DecidablePred sel] (f : Fin E → EReal) :
    (∑ e : Fin E, if sel e then f e else 0) = ∑ e ∈ Finset.univ.filter sel, f e :=
  (Finset.sum_filter sel f).symm

end Cert.SageLaws

end
-- ==== Proof.Terms.lean ====
/-
  The host side of the graph network, as functions of the argument arrays, and each read at one entry.

  The in-degree of node n is the sum of a 1 over the edges whose destination is n; it is clamped below by 1 and
  its reciprocal quotient is kept as a column. A neighbour sum is a row scatter-add, into zeros and by
  destination, of the rows gathered by source (the source first wrapped: a negative index has the number of nodes
  added): entry (n, f) is the sum over the edges e with destination n of x(row(e), f), where row(e) depends on
  the source array alone — not on x, and not on how many columns x has. A bias vector is laid out as one row.
-/
import proofs.«137012_j14748917695089_2_alg».proof.KernelIdeal
import proofs.«137012_j14748917695089_2_alg».proof.Proof.Gen.KernelIdeal
import proofs.«137012_j14748917695089_2_alg».proof.Proof.LibColumns
import proofs.«137012_j14748917695089_2_alg».proof.Proof.LibColumn
import proofs.«137012_j14748917695089_2_alg».proof.Proof.LibAggregate
import proofs.«137012_j14748917695089_2_alg».proof.Proof.LibFinite
import proofs.«137012_j14748917695089_2_alg».proof.Proof.SageLaws
import Idealize.ShloMosaic.PureOps.Ideal
import Idealize.ShloMosaic.Lib.ValueIdx
import Idealize.ShloMosaic.Lib.ValueLayout

noncomputable section

namespace Cert.KernelIdeal.Terms

open Idealize.ShloMosaic Idealize.ShloMosaic.TcCoe Idealize.ShloMosaic.ValueIdx Idealize.ShloMosaic.LibFinite
open Cert.KernelIdeal Cert.KernelIdeal.Facts₀ Cert.LibColumns
open scoped BigOperators

/-- The single-precision word of 1.0 denotes the real 1. -/
theorem ofBits_one : Ideal.ofBits .f32 0x3F800000#32 = 1 := by
  simp [Ideal.ofBits, Ideal.ieee, -EReal.coe_mul]; norm_num

/-- The in-degrees: a 1 added at its destination for every edge. -/
def degree (dst : IVec S800000 32) : FVec Ideal S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The in-degrees clamped below by 1. -/
def clampDeg (dst : IVec S800000 32) : FVec Ideal S50000 .f32 :=
  maximumf (degree dst) (broadcastInDim S50000 ![] bcast_S_S50000 (constant S_ .f32 0x3F800000#32))

/-- The column of reciprocal clamped in-degrees. -/
def invCol (dst : IVec S800000 32) : FVec Ideal S50000x1 .f32 :=
  shapeCast S50000x1
    (Host.divf (broadcastInDim S50000 ![] bcast_S_S50000 (constant S_ .f32 0x3F800000#32)) (clampDeg dst))
    shapeCasts_S50000_S50000x1

/-- The source indices, negative ones wrapped, as a column of start indices. -/
def wrap (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The row of the node table that edge e gathers. -/
def srcRow (src : IVec S800000 32) (e : Fin 800000) : Fin 50000 := gatherRow (wrap src) (by decide) e

/-- Neighbour sums of a 64-column table. -/
def agg64 (x : FVec Ideal S50000x64 .f32) (src dst : IVec S800000 32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (Host.gather gather_S50000x64_S800000x1_S800000x64_1_0_n_n_0_1_164 x (wrap src))

/-- Neighbour sums of a 128-column table. -/
def agg128 (x : FVec Ideal S50000x128 .f32) (src dst : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 x (wrap src))

/-- A 128-entry bias as a row. -/
def biasRow128 (b : FVec Ideal S128 .f32) : FVec Ideal S1x128 .f32 := shapeCast S1x128 b shapeCasts_S128_S1x128
/-- A 64-entry bias as a row. -/
def biasRow64 (b : FVec Ideal S64 .f32) : FVec Ideal S1x64 .f32 := shapeCast S1x64 b shapeCasts_S64_S1x64

theorem biasRow128_apply (b : FVec Ideal S128 .f32) (q : Fin 128) : biasRow128 b (ix2 (0 : Fin 1) q) = b (ix1 q) :=
  shapeCast_a_1a_apply b shapeCasts_S128_S1x128 0 q
theorem biasRow64_apply (b : FVec Ideal S64 .f32) (q : Fin 64) : biasRow64 b (ix2 (0 : Fin 1) q) = b (ix1 q) :=
  shapeCast_a_1a_apply b shapeCasts_S64_S1x64 0 q

/-- Entry (n, f) of the neighbour sums: the rows gathered by the edges that land on n, added up. -/
theorem agg64_apply (x : FVec Ideal S50000x64 .f32) (src dst : IVec S800000 32) (n : Fin 50000) (f : Fin 64) :
    agg64 x src dst (ix2 n f)
      = 0 + ∑ e : Fin 800000, if (dst (ix1 e)).toInt = (n.val : ℤ) then x (ix2 (srcRow src e) f) else 0 := by
  unfold agg64
  have hs : scatter_S50000x64_S800000x1_S800000x64_1_0_0_1
      = rowScatter 50000 800000 64 scatter_S50000x64_S800000x1_S800000x64_1_0_0_1_wf := rfl
  have hg : gather_S50000x64_S800000x1_S800000x64_1_0_n_n_0_1_164
      = rowGather 50000 800000 64 gather_S50000x64_S800000x1_S800000x64_1_0_n_n_0_1_164_wf := rfl
  rw [hs, hg, scatterAdd_rows_apply, Cert.LibAggregate.zeros_apply]
  refine congrArg (fun s => (0 : EReal) + s) (Finset.sum_congr rfl fun e _ => ?_)
  rw [Cert.LibColumn.bcastInDim_a_a1_apply, gather_rows_apply _ _ (by decide)]
  rfl

theorem agg128_apply (x : FVec Ideal S50000x128 .f32) (src dst : IVec S800000 32) (n : Fin 50000) (f : Fin 128) :
    agg128 x src dst (ix2 n f)
      = 0 + ∑ e : Fin 800000, if (dst (ix1 e)).toInt = (n.val : ℤ) then x (ix2 (srcRow src e) f) else 0 := by
  unfold agg128
  have hs : scatter_S50000x128_S800000x1_S800000x128_1_0_0_1
      = rowScatter 50000 800000 128 scatter_S50000x128_S800000x1_S800000x128_1_0_0_1_wf := rfl
  have hg : gather_S50000x128_S800000x1_S800000x128_1_0_n_n_0_1_1128
      = rowGather 50000 800000 128 gather_S50000x128_S800000x1_S800000x128_1_0_n_n_0_1_1128_wf := rfl
  rw [hs, hg, scatterAdd_rows_apply, Cert.LibAggregate.zeros_apply]
  refine congrArg (fun s => (0 : EReal) + s) (Finset.sum_congr rfl fun e _ => ?_)
  rw [Cert.LibColumn.bcastInDim_a_a1_apply, gather_rows_apply _ _ (by decide)]
  rfl

/-- A spread scalar constant reads its word at every index. -/
theorem splat_apply {t : Shape} (h : S_.BroadcastsInDim t (![] : Fin 0 → Fin t.rank)) (w : BitVec 32) (i : t.Idx) :
    broadcastInDim t ![] h (constant (F := Ideal) S_ .f32 w) i = Ideal.ofBits .f32 w :=
  Cert.LibColumn.bcastInDim_scalar_apply (constant (F := Ideal) S_ .f32 w) h i ix0

/-- The host's quotient of two arrays at an index is the quotient of the entries. -/
theorem hostDivf_apply {s : Shape} (a b : FVec Ideal s .f32) (i : s.Idx) : Host.divf a b i = Ideal.div (a i) (b i) := rfl

/-- The clamped in-degree of node n, and that it is a nonzero real. -/
theorem clampDeg_apply (dst : IVec S800000 32) (n : Fin 50000) :
    clampDeg dst (ix1 n) = max (degree dst (ix1 n)) 1 := by
  unfold clampDeg
  rw [maximumf_apply, splat_apply, ofBits_one]

theorem isReal_degree (dst : IVec S800000 32) (i : S50000.Idx) : IsReal (degree dst i) := by
  have hx : ∀ j, IsReal (broadcastInDim S50000 ![] bcast_S_S50000 (constant (F := Ideal) S_ .f32 0x00000000#32) j) := fun j => by
    rw [splat_apply]; exact isReal_ofBits_zero
  have hu : ∀ j, IsReal (broadcastInDim S800000 ![] bcast_S_S800000 (constant (F := Ideal) S_ .f32 0x3F800000#32) j) := fun j => by
    rw [splat_apply]; exact isReal_ofBits_one
  unfold degree
  exact isReal_scatterAdd _ _ _ _ hx hu i

theorem clampDeg_ne_zero (dst : IVec S800000 32) (n : Fin 50000) : clampDeg dst (ix1 n) ≠ 0 := by
  rw [clampDeg_apply]; exact Cert.SageLaws.max_one_ne_zero _

theorem isReal_clampDeg (dst : IVec S800000 32) (n : Fin 50000) : IsReal (clampDeg dst (ix1 n)) := by
  rw [clampDeg_apply]; exact IsReal.max _ _ (isReal_degree dst _) ⟨1, rfl⟩

/-- The reciprocal column at row n is the quotient 1 / (clamped in-degree of n). -/
theorem invCol_apply (dst : IVec S800000 32) (n : Fin 50000) :
    invCol dst (ix2 n (0 : Fin 1)) = Ideal.div 1 (clampDeg dst (ix1 n)) := by
  unfold invCol
  rw [Cert.LibColumn.shapeCast_a_a1_apply]
  rw [hostDivf_apply, splat_apply, ofBits_one]

theorem isReal_invCol (dst : IVec S800000 32) (n : Fin 50000) : IsReal (invCol dst (ix2 n (0 : Fin 1))) := by
  rw [invCol_apply]
  exact Cert.SageLaws.isReal_one_div _ (isReal_clampDeg dst n) (clampDeg_ne_zero dst n)

end Cert.KernelIdeal.Terms

end
-- ==== Proof.Network.lean ====
/-
  The three-layer network as functions of the argument arrays, on the extended reals: x0 the node features,
  x1 and x2 the edges' sources and destinations, (x3, x4, x5), (x6, x7, x8), (x9, x10, x11) each layer's self
  weights, neighbour weights and bias.
-/
import proofs.«137012_j14748917695089_2_alg».proof.Proof.Terms
import proofs.«137012_j14748917695089_2_alg».proof.Proof.SageSpec

noncomputable section

namespace Cert.Network

open Idealize.ShloMosaic Idealize.ShloMosaic.TcCoe Cert.KernelIdeal Cert.KernelIdeal.Terms Cert.SageSpec

/-- The first hidden array: the full layer of the features. -/
def hidden1 (x0 : FVec Ideal S50000x64 .f32) (x1 x2 : IVec S800000 32) (x3 x4 : FVec Ideal S64x128 .f32)
    (x5 : FVec Ideal S128 .f32) : FVec Ideal S50000x128 .f32 :=
  fullLayer x0 (agg64 x0 x1 x2) (invCol x2) x3 x4 (biasRow128 x5)

/-- The second hidden array: the full layer of the first. -/
def hidden2 (h1 : FVec Ideal S50000x128 .f32) (x1 x2 : IVec S800000 32) (x6 x7 : FVec Ideal S128x128 .f32)
    (x8 : FVec Ideal S128 .f32) : FVec Ideal S50000x128 .f32 :=
  fullLayer h1 (agg128 h1 x1 x2) (invCol x2) x6 x7 (biasRow128 x8)

/-- The result: the last layer over the neighbour sums of the projected second hidden array. -/
def output (h2 : FVec Ideal S50000x128 .f32) (x1 x2 : IVec S800000 32) (x9 x10 : FVec Ideal S128x64 .f32)
    (x11 : FVec Ideal S64 .f32) : FVec Ideal S50000x64 .f32 :=
  lastLayer h2 (agg64 (proj h2 x10) x1 x2) (invCol x2) x9 (biasRow64 x11)

end Cert.Network

end
-- ==== Proof.KernelValue.lean ====
/-
  The idealized kernel's result array as a function of the argument arrays.

  The buffer contents are followed through the program's seven segments. A stretch of host operations writes each
  of its results as the operations' term of what it finds; a launch leaves its output array at its layer's function
  of the arrays it found on entry (the four launch modules) and every other buffer as it was. Read at the result's
  buffer after the last launch, the fold is the three-layer network of the arguments: two full layers, the
  projection of the second hidden array, its neighbour sums, and the last layer.
-/
import proofs.«137012_j14748917695089_2_alg».proof.Proof.Gen.KernelIdeal.Frame
import proofs.«137012_j14748917695089_2_alg».proof.Proof.Region0
import proofs.«137012_j14748917695089_2_alg».proof.Proof.Region1
import proofs.«137012_j14748917695089_2_alg».proof.Proof.Region2
import proofs.«137012_j14748917695089_2_alg».proof.Proof.Region3
import proofs.«137012_j14748917695089_2_alg».proof.Proof.Network
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.Terms Cert.SageSpec Cert.Network

variable (m : (ℓ : Loc nD τ sig) → Buf (Elt Ideal) ℓ) (ρ : Dev nD → PrngReg)

theorem w1_arg0 (c : Dev nD) : W1 m ρ c (Proc.devRef .tc main_arg0) = m ((c : Thread nD τ).loc main_arg0) := by
  show StableHlo.after hostOps0 (W0 m ρ c) (Proc.devRef .tc main_arg0) = _
  after_results

theorem w1_arg1 (c : Dev nD) : W1 m ρ c (Proc.devRef .tc main_arg1) = m ((c : Thread nD τ).loc main_arg1) := by
  show StableHlo.after hostOps0 (W0 m ρ c) (Proc.devRef .tc main_arg1) = _
  after_results

theorem w1_arg2 (c : Dev nD) : W1 m ρ c (Proc.devRef .tc main_arg2) = m ((c : Thread nD τ).loc main_arg2) := by
  show StableHlo.after hostOps0 (W0 m ρ c) (Proc.devRef .tc main_arg2) = _
  after_results

theorem w1_arg3 (c : Dev nD) : W1 m ρ c (Proc.devRef .tc main_arg3) = m ((c : Thread nD τ).loc main_arg3) := by
  show StableHlo.after hostOps0 (W0 m ρ c) (Proc.devRef .tc main_arg3) = _
  after_results

theorem w1_arg4 (c : Dev nD) : W1 m ρ c (Proc.devRef .tc main_arg4) = m ((c : Thread nD τ).loc main_arg4) := by
  show StableHlo.after hostOps0 (W0 m ρ c) (Proc.devRef .tc main_arg4) = _
  after_results

theorem w1_arg6 (c : Dev nD) : W1 m ρ c (Proc.devRef .tc main_arg6) = m ((c : Thread nD τ).loc main_arg6) := by
  show StableHlo.after hostOps0 (W0 m ρ c) (Proc.devRef .tc main_arg6) = _
  after_results

theorem w1_arg7 (c : Dev nD) : W1 m ρ c (Proc.devRef .tc main_arg7) = m ((c : Thread nD τ).loc main_arg7) := by
  show StableHlo.after hostOps0 (W0 m ρ c) (Proc.devRef .tc main_arg7) = _
  after_results

theorem w1_arg8 (c : Dev nD) : W1 m ρ c (Proc.devRef .tc main_arg8) = m ((c : Thread nD τ).loc main_arg8) := by
  show StableHlo.after hostOps0 (W0 m ρ c) (Proc.devRef .tc main_arg8) = _
  after_results

theorem w1_arg9 (c : Dev nD) : W1 m ρ c (Proc.devRef .tc main_arg9) = m ((c : Thread nD τ).loc main_arg9) := by
  show StableHlo.after hostOps0 (W0 m ρ c) (Proc.devRef .tc main_arg9) = _
  after_results

theorem w1_arg10 (c : Dev nD) : W1 m ρ c (Proc.devRef .tc main_arg10) = m ((c : Thread nD τ).loc main_arg10) := by
  show StableHlo.after hostOps0 (W0 m ρ c) (Proc.devRef .tc main_arg10) = _
  after_results

theorem w1_arg11 (c : Dev nD) : W1 m ρ c (Proc.devRef .tc main_arg11) = m ((c : Thread nD τ).loc main_arg11) := by
  show StableHlo.after hostOps0 (W0 m ρ c) (Proc.devRef .tc main_arg11) = _
  after_results

theorem w1_v8 (c : Dev nD) : W1 m ρ c (Proc.devRef .tc main_v8) = invCol (m ((c : Thread nD τ).loc main_arg2)) := by
  show StableHlo.after hostOps0 (W0 m ρ c) (Proc.devRef .tc main_v8) = _
  after_results
  rfl

theorem w1_v18 (c : Dev nD) : W1 m ρ c (Proc.devRef .tc main_v18) = agg64 (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  unfold agg64 wrap
  rfl

theorem w1_v19 (c : Dev nD) : W1 m ρ c (Proc.devRef .tc main_v19) = biasRow128 (m ((c : Thread nD τ).loc main_arg5)) := by
  show StableHlo.after hostOps0 (W0 m ρ c) (Proc.devRef .tc main_v19) = _
  after_results
  rfl

theorem w2_arg1 (c : Dev nD) : W2 m ρ c (Proc.devRef .tc main_arg1) = m ((c : Thread nD τ).loc main_arg1) :=
  (W2_of_ne m ρ c main_arg1 (by decide)).trans (w1_arg1 m ρ c)

theorem w2_arg2 (c : Dev nD) : W2 m ρ c (Proc.devRef .tc main_arg2) = m ((c : Thread nD τ).loc main_arg2) :=
  (W2_of_ne m ρ c main_arg2 (by decide)).trans (w1_arg2 m ρ c)

theorem w2_arg6 (c : Dev nD) : W2 m ρ c (Proc.devRef .tc main_arg6) = m ((c : Thread nD τ).loc main_arg6) :=
  (W2_of_ne m ρ c main_arg6 (by decide)).trans (w1_arg6 m ρ c)

theorem w2_arg7 (c : Dev nD) : W2 m ρ c (Proc.devRef .tc main_arg7) = m ((c : Thread nD τ).loc main_arg7) :=
  (W2_of_ne m ρ c main_arg7 (by decide)).trans (w1_arg7 m ρ c)

theorem w2_arg8 (c : Dev nD) : W2 m ρ c (Proc.devRef .tc main_arg8) = m ((c : Thread nD τ).loc main_arg8) :=
  (W2_of_ne m ρ c main_arg8 (by decide)).trans (w1_arg8 m ρ c)

theorem w2_arg9 (c : Dev nD) : W2 m ρ c (Proc.devRef .tc main_arg9) = m ((c : Thread nD τ).loc main_arg9) :=
  (W2_of_ne m ρ c main_arg9 (by decide)).trans (w1_arg9 m ρ c)

theorem w2_arg10 (c : Dev nD) : W2 m ρ c (Proc.devRef .tc main_arg10) = m ((c : Thread nD τ).loc main_arg10) :=
  (W2_of_ne m ρ c main_arg10 (by decide)).trans (w1_arg10 m ρ c)

theorem w2_arg11 (c : Dev nD) : W2 m ρ c (Proc.devRef .tc main_arg11) = m ((c : Thread nD τ).loc main_arg11) :=
  (W2_of_ne m ρ c main_arg11 (by decide)).trans (w1_arg11 m ρ c)

theorem w2_v8 (c : Dev nD) : W2 m ρ c (Proc.devRef .tc main_v8) = invCol (m ((c : Thread nD τ).loc main_arg2)) :=
  (W2_arr m ρ c 2).trans (((dat0 (V1 m ρ) c).arrAt_in 2 rfl _).trans ((A_eq0 (V1 m ρ) c 2).trans (w1_v8 m ρ c)))

theorem w2_v20 (c : Dev nD) : W2 m ρ c (Proc.devRef .tc main_v20) = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 6).trans ((Region0.final (V1 m ρ) c).trans (by
    show fullLayer (W1 m ρ c (Proc.devRef .tc main_arg0)) (W1 m ρ c (Proc.devRef .tc main_v18)) (W1 m ρ c (Proc.devRef .tc main_v8)) (W1 m ρ c (Proc.devRef .tc main_arg3)) (W1 m ρ c (Proc.devRef .tc main_arg4)) (W1 m ρ c (Proc.devRef .tc main_v19)) = _
    rw [w1_arg0 m ρ c, w1_v18 m ρ c, w1_v8 m ρ c, w1_arg3 m ρ c, w1_arg4 m ρ c, w1_v19 m ρ c]
    all_goals rfl))

theorem w3_arg1 (c : Dev nD) : W3 m ρ c (Proc.devRef .tc main_arg1) = m ((c : Thread nD τ).loc main_arg1) := by
  show StableHlo.after hostOps1 (W2 m ρ c) (Proc.devRef .tc main_arg1) = _
  after_results
  exact w2_arg1 m ρ c

theorem w3_arg2 (c : Dev nD) : W3 m ρ c (Proc.devRef .tc main_arg2) = m ((c : Thread nD τ).loc main_arg2) := by
  show StableHlo.after hostOps1 (W2 m ρ c) (Proc.devRef .tc main_arg2) = _
  after_results
  exact w2_arg2 m ρ c

theorem w3_arg6 (c : Dev nD) : W3 m ρ c (Proc.devRef .tc main_arg6) = m ((c : Thread nD τ).loc main_arg6) := by
  show StableHlo.after hostOps1 (W2 m ρ c) (Proc.devRef .tc main_arg6) = _
  after_results
  exact w2_arg6 m ρ c

theorem w3_arg7 (c : Dev nD) : W3 m ρ c (Proc.devRef .tc main_arg7) = m ((c : Thread nD τ).loc main_arg7) := by
  show StableHlo.after hostOps1 (W2 m ρ c) (Proc.devRef .tc main_arg7) = _
  after_results
  exact w2_arg7 m ρ c

theorem w3_arg9 (c : Dev nD) : W3 m ρ c (Proc.devRef .tc main_arg9) = m ((c : Thread nD τ).loc main_arg9) := by
  show StableHlo.after hostOps1 (W2 m ρ c) (Proc.devRef .tc main_arg9) = _
  after_results
  exact w2_arg9 m ρ c

theorem w3_arg10 (c : Dev nD) : W3 m ρ c (Proc.devRef .tc main_arg10) = m ((c : Thread nD τ).loc main_arg10) := by
  show StableHlo.after hostOps1 (W2 m ρ c) (Proc.devRef .tc main_arg10) = _
  after_results
  exact w2_arg10 m ρ c

theorem w3_arg11 (c : Dev nD) : W3 m ρ c (Proc.devRef .tc main_arg11) = m ((c : Thread nD τ).loc main_arg11) := by
  show StableHlo.after hostOps1 (W2 m ρ c) (Proc.devRef .tc main_arg11) = _
  after_results
  exact w2_arg11 m ρ c

theorem w3_v8 (c : Dev nD) : W3 m ρ c (Proc.devRef .tc main_v8) = invCol (m ((c : Thread nD τ).loc main_arg2)) := by
  show StableHlo.after hostOps1 (W2 m ρ c) (Proc.devRef .tc main_v8) = _
  after_results
  exact w2_v8 m ρ c

theorem w3_v20 (c : Dev nD) : W3 m ρ c (Proc.devRef .tc main_v20) = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v20) = _
  after_results
  exact w2_v20 m ρ c

theorem w3_v30 (c : Dev nD) : W3 m ρ c (Proc.devRef .tc main_v30) = agg128 (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  show StableHlo.after hostOps1 (W2 m ρ c) (Proc.devRef .tc main_v30) = _
  after_results_simp
  rw [w2_arg2 m ρ c, w2_v20 m ρ c, w2_arg1 m ρ c]
  unfold agg128 wrap
  rfl

theorem w3_v31 (c : Dev nD) : W3 m ρ c (Proc.devRef .tc main_v31) = biasRow128 (m ((c : Thread nD τ).loc main_arg8)) := by
  show StableHlo.after hostOps1 (W2 m ρ c) (Proc.devRef .tc main_v31) = _
  after_results
  rw [w2_arg8 m ρ c]
  rfl

theorem w4_arg1 (c : Dev nD) : W4 m ρ c (Proc.devRef .tc main_arg1) = m ((c : Thread nD τ).loc main_arg1) :=
  (W4_of_ne m ρ c main_arg1 (by decide)).trans (w3_arg1 m ρ c)

theorem w4_arg2 (c : Dev nD) : W4 m ρ c (Proc.devRef .tc main_arg2) = m ((c : Thread nD τ).loc main_arg2) :=
  (W4_of_ne m ρ c main_arg2 (by decide)).trans (w3_arg2 m ρ c)

theorem w4_arg9 (c : Dev nD) : W4 m ρ c (Proc.devRef .tc main_arg9) = m ((c : Thread nD τ).loc main_arg9) :=
  (W4_of_ne m ρ c main_arg9 (by decide)).trans (w3_arg9 m ρ c)

theorem w4_arg10 (c : Dev nD) : W4 m ρ c (Proc.devRef .tc main_arg10) = m ((c : Thread nD τ).loc main_arg10) :=
  (W4_of_ne m ρ c main_arg10 (by decide)).trans (w3_arg10 m ρ c)

theorem w4_arg11 (c : Dev nD) : W4 m ρ c (Proc.devRef .tc main_arg11) = m ((c : Thread nD τ).loc main_arg11) :=
  (W4_of_ne m ρ c main_arg11 (by decide)).trans (w3_arg11 m ρ c)

theorem w4_v8 (c : Dev nD) : W4 m ρ c (Proc.devRef .tc main_v8) = invCol (m ((c : Thread nD τ).loc main_arg2)) :=
  (W4_arr m ρ c 2).trans (((dat1 (V3 m ρ) c).arrAt_in 2 rfl _).trans ((A_eq1 (V3 m ρ) c 2).trans (w3_v8 m ρ c)))

theorem w4_v32 (c : Dev nD) : W4 m ρ c (Proc.devRef .tc main_v32) = hidden2 (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8)) :=
  (W4_arr m ρ c 6).trans ((Region1.final (V3 m ρ) c).trans (by
    show fullLayer (W3 m ρ c (Proc.devRef .tc main_v20)) (W3 m ρ c (Proc.devRef .tc main_v30)) (W3 m ρ c (Proc.devRef .tc main_v8)) (W3 m ρ c (Proc.devRef .tc main_arg6)) (W3 m ρ c (Proc.devRef .tc main_arg7)) (W3 m ρ c (Proc.devRef .tc main_v31)) = _
    rw [w3_v20 m ρ c, w3_v30 m ρ c, w3_v8 m ρ c, w3_arg6 m ρ c, w3_arg7 m ρ c, w3_v31 m ρ c]
    all_goals rfl))

theorem w5_arg1 (c : Dev nD) : W5 m ρ c (Proc.devRef .tc main_arg1) = m ((c : Thread nD τ).loc main_arg1) :=
  (W5_of_ne m ρ c main_arg1 (by decide)).trans (w4_arg1 m ρ c)

theorem w5_arg2 (c : Dev nD) : W5 m ρ c (Proc.devRef .tc main_arg2) = m ((c : Thread nD τ).loc main_arg2) :=
  (W5_of_ne m ρ c main_arg2 (by decide)).trans (w4_arg2 m ρ c)

theorem w5_arg9 (c : Dev nD) : W5 m ρ c (Proc.devRef .tc main_arg9) = m ((c : Thread nD τ).loc main_arg9) :=
  (W5_of_ne m ρ c main_arg9 (by decide)).trans (w4_arg9 m ρ c)

theorem w5_arg11 (c : Dev nD) : W5 m ρ c (Proc.devRef .tc main_arg11) = m ((c : Thread nD τ).loc main_arg11) :=
  (W5_of_ne m ρ c main_arg11 (by decide)).trans (w4_arg11 m ρ c)

theorem w5_v8 (c : Dev nD) : W5 m ρ c (Proc.devRef .tc main_v8) = invCol (m ((c : Thread nD τ).loc main_arg2)) :=
  (W5_of_ne m ρ c main_v8 (by decide)).trans (w4_v8 m ρ c)

theorem w5_v32 (c : Dev nD) : W5 m ρ c (Proc.devRef .tc main_v32) = hidden2 (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8)) :=
  (W5_arr m ρ c 0).trans (((dat2 (V4 m ρ) c).arrAt_in 0 rfl _).trans ((A_eq2 (V4 m ρ) c 0).trans (w4_v32 m ρ c)))

theorem w5_v33 (c : Dev nD) : W5 m ρ c (Proc.devRef .tc main_v33) = proj (hidden2 (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8))) (m ((c : Thread nD τ).loc main_arg10)) :=
  (W5_arr m ρ c 2).trans ((Region2.final (V4 m ρ) c).trans (by
    show proj (W4 m ρ c (Proc.devRef .tc main_v32)) (W4 m ρ c (Proc.devRef .tc main_arg10)) = _
    rw [w4_v32 m ρ c, w4_arg10 m ρ c]
    all_goals rfl))

theorem w6_arg9 (c : Dev nD) : W6 m ρ c (Proc.devRef .tc main_arg9) = m ((c : Thread nD τ).loc main_arg9) := by
  show StableHlo.after hostOps3 (W5 m ρ c) (Proc.devRef .tc main_arg9) = _
  after_results
  exact w5_arg9 m ρ c

theorem w6_v8 (c : Dev nD) : W6 m ρ c (Proc.devRef .tc main_v8) = invCol (m ((c : Thread nD τ).loc main_arg2)) := by
  show StableHlo.after hostOps3 (W5 m ρ c) (Proc.devRef .tc main_v8) = _
  after_results
  exact w5_v8 m ρ c

theorem w6_v32 (c : Dev nD) : W6 m ρ c (Proc.devRef .tc main_v32) = hidden2 (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8)) := by
  show StableHlo.after hostOps3 (W5 m ρ c) (Proc.devRef .tc main_v32) = _
  after_results
  exact w5_v32 m ρ c

theorem w6_v43 (c : Dev nD) : W6 m ρ c (Proc.devRef .tc main_v43) = agg64 (proj (hidden2 (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8))) (m ((c : Thread nD τ).loc main_arg10))) (m ((c : Thread nD τ).loc main_arg1)) (m ((c : Thread nD τ).loc main_arg2)) := by
  show StableHlo.after hostOps3 (W5 m ρ c) (Proc.devRef .tc main_v43) = _
  after_results_simp
  rw [w5_arg2 m ρ c, w5_v33 m ρ c, w5_arg1 m ρ c]
  unfold agg64 wrap
  rfl

theorem w6_v44 (c : Dev nD) : W6 m ρ c (Proc.devRef .tc main_v44) = biasRow64 (m ((c : Thread nD τ).loc main_arg11)) := by
  show StableHlo.after hostOps3 (W5 m ρ c) (Proc.devRef .tc main_v44) = _
  after_results
  rw [w5_arg11 m ρ c]
  rfl

theorem w7_v45 (c : Dev nD) : W7 m ρ c (Proc.devRef .tc main_v45) = output (hidden2 (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg9)) (m ((c : Thread nD τ).loc main_arg10)) (m ((c : Thread nD τ).loc main_arg11)) :=
  (W7_arr m ρ c 5).trans ((Region3.final (V6 m ρ) c).trans (by
    show lastLayer (W6 m ρ c (Proc.devRef .tc main_v32)) (W6 m ρ c (Proc.devRef .tc main_v43)) (W6 m ρ c (Proc.devRef .tc main_v8)) (W6 m ρ c (Proc.devRef .tc main_arg9)) (W6 m ρ c (Proc.devRef .tc main_v44)) = _
    rw [w6_v32 m ρ c, w6_v43 m ρ c, w6_v8 m ρ c, w6_arg9 m ρ c, w6_v44 m ρ c]
    all_goals rfl))

end Cert.KernelIdeal.Whole

end
-- ==== Proof.NetworkReal.lean ====
/-
  The hidden arrays of the network are real when the arguments are.

  A neighbour sum of a real table is a real at every entry (a zero plus finitely many entries of the table); a
  layer of real arrays is real at every entry (finite sums of products of reals, a maximum with the real 0); the
  reciprocal clamped in-degree is a real whatever the edges are. So finiteness of the arguments carries through
  the first two layers, which is what moving the last projection across the aggregation needs.
-/
import proofs.«137012_j14748917695089_2_alg».proof.Proof.Network
import proofs.«137012_j14748917695089_2_alg».proof.Proof.LibFinite

noncomputable section

namespace Cert.Network

open Idealize.ShloMosaic Idealize.ShloMosaic.TcCoe Idealize.ShloMosaic.ValueIdx Idealize.ShloMosaic.LibFinite
open Cert.KernelIdeal Cert.KernelIdeal.Facts₀ Cert.KernelIdeal.Terms Cert.SageSpec
open scoped BigOperators

theorem isReal_agg64 (x : FVec Ideal S50000x64 .f32) (src dst : IVec S800000 32) (hx : ∀ i, IsReal (x i))
    (i : S50000x64.Idx) : IsReal (agg64 x src dst i) := by
  have h0 : ∀ j, IsReal (broadcastInDim S50000x64 ![] bcast_S_S50000x64 (constant (F := Ideal) S_ .f32 0x00000000#32) j) :=
    fun j => by rw [splat_apply]; exact isReal_ofBits_zero
  have hg : ∀ j, IsReal (Host.gather gather_S50000x64_S800000x1_S800000x64_1_0_n_n_0_1_164 x (wrap src) j) :=
    fun j => isReal_gather _ _ _ hx j
  unfold agg64
  exact isReal_scatterAdd _ _ _ _ h0 hg i

theorem isReal_agg128 (x : FVec Ideal S50000x128 .f32) (src dst : IVec S800000 32) (hx : ∀ i, IsReal (x i))
    (i : S50000x128.Idx) : IsReal (agg128 x src dst i) := by
  have h0 : ∀ j, IsReal (broadcastInDim S50000x128 ![] bcast_S_S50000x128 (constant (F := Ideal) S_ .f32 0x00000000#32) j) :=
    fun j => by rw [splat_apply]; exact isReal_ofBits_zero
  have hg : ∀ j, IsReal (Host.gather gather_S50000x128_S800000x1_S800000x128_1_0_n_n_0_1_1128 x (wrap src) j) :=
    fun j => isReal_gather _ _ _ hx j
  unfold agg128
  exact isReal_scatterAdd _ _ _ _ h0 hg i

theorem isReal_biasRow128 (b : FVec Ideal S128 .f32) (hb : ∀ i, IsReal (b i)) (i : S1x128.Idx) :
    IsReal (biasRow128 b i) := hb _

/-- A full layer of real arrays is real at every entry. -/
theorem isReal_fullLayer {N K C : ℕ} (x a : (⟨2, ![N, K]⟩ : Shape).Idx → EReal) (iv : (⟨2, ![N, 1]⟩ : Shape).Idx → EReal)
    (ws wn : (⟨2, ![K, C]⟩ : Shape).Idx → EReal) (b : (⟨2, ![1, C]⟩ : Shape).Idx → EReal)
    (hx : ∀ i, IsReal (x i)) (ha : ∀ i, IsReal (a i)) (hiv : ∀ i, IsReal (iv i)) (hws : ∀ i, IsReal (ws i))
    (hwn : ∀ i, IsReal (wn i)) (hb : ∀ i, IsReal (b i)) (i : (⟨2, ![N, C]⟩ : Shape).Idx) :
    IsReal (fullLayer x a iv ws wn b i) := by
  unfold fullLayer
  refine IsReal.max _ _ (IsReal.add _ _ (IsReal.add _ _ ?_ ?_) (hb _)) isReal_ofBits_zero
  · exact isReal_dot _ _ (fun k => hx _) (fun k => hws _)
  · exact isReal_dot _ _ (fun k => IsReal.mul _ _ (ha _) (hiv _)) (fun k => hwn _)

/-- Every entry of the reciprocal-degree column is real. -/
theorem isReal_invCol_all (dst : IVec S800000 32) (i : S50000x1.Idx) : IsReal (invCol dst i) := by
  obtain ⟨n, u, rfl⟩ : ∃ (n : Fin 50000) (u : Fin 1), i = ix2 n u := ⟨i 0, i 1, eq_ix2 i⟩
  have hu : u = 0 := Subsingleton.elim _ _
  subst hu
  exact isReal_invCol dst n

theorem isReal_hidden1 (x0 : FVec Ideal S50000x64 .f32) (x1 x2 : IVec S800000 32) (x3 x4 : FVec Ideal S64x128 .f32)
    (x5 : FVec Ideal S128 .f32) (h0 : ∀ i, IsReal (x0 i)) (h3 : ∀ i, IsReal (x3 i)) (h4 : ∀ i, IsReal (x4 i))
    (h5 : ∀ i, IsReal (x5 i)) (i : S50000x128.Idx) : IsReal (hidden1 x0 x1 x2 x3 x4 x5 i) :=
  isReal_fullLayer _ _ _ _ _ _ h0 (isReal_agg64 x0 x1 x2 h0) (isReal_invCol_all x2) h3 h4 (isReal_biasRow128 x5 h5) i

theorem isReal_hidden2 (h1 : FVec Ideal S50000x128 .f32) (x1 x2 : IVec S800000 32) (x6 x7 : FVec Ideal S128x128 .f32)
    (x8 : FVec Ideal S128 .f32) (hh : ∀ i, IsReal (h1 i)) (h6 : ∀ i, IsReal (x6 i)) (h7 : ∀ i, IsReal (x7 i))
    (h8 : ∀ i, IsReal (x8 i)) (i : S50000x128.Idx) : IsReal (hidden2 h1 x1 x2 x6 x7 x8 i) :=
  isReal_fullLayer _ _ _ _ _ _ hh (isReal_agg128 h1 x1 x2 hh) (isReal_invCol_all x2) h6 h7 (isReal_biasRow128 x8 h8) i

end Cert.Network

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«137012_j14748917695089_2_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibMeanLayer.lean ====
/-
  One mean-aggregation layer of a graph network, as the HOST computes it, read at one entry, for any extents:
  with x the features [N, K], a the neighbour sums [N, K], d the clamped in-degrees [N], ws and wn two weight
  matrices [K, C] and b a bias [C],
      (x · ws + (a / d) · wn + b)(n, q)
        = ∑_k x(n,k) · ws(k,q) + ∑_k (a(n,k) / d(n)) · wn(k,q) + b(q),
  where a / d divides row n of a by d(n) (d laid out as a column and stretched over the K columns) and b is laid
  out as a row and stretched over the N rows. On the extended reals, for any record of a plain [N,K] x [K,C]
  product.
-/
import proofs.«137012_j14748917695089_2_alg».proof.Proof.LibHostDot
import proofs.«137012_j14748917695089_2_alg».proof.Proof.LibPlainDot
import proofs.«137012_j14748917695089_2_alg».proof.Proof.LibColumn
import Idealize.ShloMosaic.PureOps.Ideal
import Idealize.ShloMosaic.PureOps.Ideal.Laws
import Idealize.ShloMosaic.Lib.ValueIdx

noncomputable section

open scoped BigOperators

namespace Cert.LibMeanLayer

open Idealize.ShloMosaic Idealize.ShloMosaic.ValueIdx Cert.LibPlainDot Cert.LibHostDot Cert.LibColumn

/-- The host's quotient of two arrays at an index is the quotient of the entries. -/
theorem hostDivf_apply {s : Shape} (a b : FVec Ideal s .f32) (i : s.Idx) :
    Host.divf a b i = Ideal.div (a i) (b i) := rfl

/-- THE LAYER AT (n, q): self product, product of the row-normalised neighbour sums, bias. -/
theorem meanLayer_apply {N K C : ℕ}
    (wf : DotDims.WF ⟨2, ![N, K]⟩ ⟨2, ![K, C]⟩ ⟨2, ![N, C]⟩ [1] [0] [0] [1] [] [])
    (hd1 : (⟨1, ![N]⟩ : Shape).BroadcastsInDim ⟨2, ![N, 1]⟩ ![0])
    (hd2 : (⟨2, ![N, 1]⟩ : Shape).BroadcastsInDim ⟨2, ![N, K]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (x a : FVec Ideal ⟨2, ![N, K]⟩ .f32) (d : FVec Ideal ⟨1, ![N]⟩ .f32)
    (ws wn : FVec Ideal ⟨2, ![K, C]⟩ .f32) (b : FVec Ideal ⟨1, ![C]⟩ .f32) (n : Fin N) (q : Fin C) :
    addf (addf (Host.dotGeneral (F := Ideal) (plainDot N K C wf) none x ws)
        (Host.dotGeneral (F := Ideal) (plainDot N K C wf) none
          (Host.divf a (broadcastInDim ⟨2, ![N, K]⟩ ![0, 1] hd2 (broadcastInDim ⟨2, ![N, 1]⟩ ![0] hd1 d))) wn))
      (broadcastInDim ⟨2, ![N, C]⟩ ![0, 1] hb2 (broadcastInDim ⟨2, ![1, C]⟩ ![1] hb1 b)) (ix2 n q)
      = (∑ k : Fin K, x (ix2 n k) * ws (ix2 k q) + ∑ k : Fin K, Ideal.div (a (ix2 n k)) (d (ix1 n)) * wn (ix2 k q))
          + b (ix1 q) := by
  rw [addf_apply, addf_apply, hostDot_apply, hostDot_apply, bcastInDim_1b_ab_apply, bcastInDim_b_1b_apply]
  refine congrArg (fun s => (∑ k : Fin K, x (ix2 n k) * ws (ix2 k q) + s) + b (ix1 q)) (Finset.sum_congr rfl fun k _ => ?_)
  rw [hostDivf_apply, bcastInDim_a1_ab_apply, bcastInDim_a_a1_apply]

end Cert.LibMeanLayer

end
-- ==== Proof.RefValue.lean ====
/-
  The idealized reference's result array is the network of its arguments.

  Each of the reference's three layers is, entry by entry, the self product plus the product of the row-normalised
  neighbour sums plus the bias; dividing a neighbour sum by the clamped in-degree d(n) is multiplying it by the
  reciprocal quotient 1 / d(n), since d(n) ≥ 1 is not zero. That makes the first two layers the network's hidden
  arrays, with no condition on the arguments. In the last layer the reference projects the normalised neighbour
  sums of the second hidden array h, the network normalises the neighbour sums of the projected h: the two agree
  when h, the weights and the reciprocal degree are real, which finite arguments give.
-/
import proofs.«137012_j14748917695089_2_alg».proof.Proof.Gen.ReferenceIdeal.Read
import proofs.«137012_j14748917695089_2_alg».proof.Proof.NetworkReal
import proofs.«137012_j14748917695089_2_alg».proof.Proof.LibMeanLayer
import proofs.«137012_j14748917695089_2_alg».proof.Proof.SageLaws

noncomputable section

namespace Cert.ReferenceIdeal.Net

open Idealize.ShloMosaic Idealize.ShloMosaic.TcCoe Idealize.ShloMosaic.ValueIdx Idealize.ShloMosaic.LibFinite
open Cert.ReferenceIdeal Cert.ReferenceIdeal.Facts₀ Cert.ReferenceIdeal.Read
open Cert.KernelIdeal.Terms Cert.SageSpec Cert.Network Cert.SageLaws
open scoped BigOperators

/-- The first layer before its rectifier, at (n, q). -/
theorem pre1_apply (x0 : (⟨S50000x64, .f32⟩ : BufTy).Contents (Elt Ideal)) (x1 x2 : (⟨S800000, .i32⟩ : BufTy).Contents (Elt Ideal)) (x3 x4 : (⟨S64x128, .f32⟩ : BufTy).Contents (Elt Ideal)) (x5 : (⟨S128, .f32⟩ : BufTy).Contents (Elt Ideal)) (n : Fin 50000) (q : Fin 128) :
    val_main_v24 (F := Ideal) x0 x1 x2 x3 x4 x5 (ix2 n q)
      = (∑ k : Fin 64, x0 (ix2 n k) * x3 (ix2 k q)
          + ∑ k : Fin 64, (agg64 x0 x1 x2 (ix2 n k) * invCol x2 (ix2 n (0 : Fin 1))) * x4 (ix2 k q))
        + biasRow128 x5 (ix2 (0 : Fin 1) q) := by
  refine (Cert.LibMeanLayer.meanLayer_apply dot_S50000x64_S64x128_S50000x128_1_0_0_1_n_n_wf bcast_S50000_S50000x1_0
    bcast_S50000x1_S50000x64_0_1 bcast_S128_S1x128_1 bcast_S1x128_S50000x128_0_1 x0 (agg64 x0 x1 x2) (clampDeg x2) x3 x4 x5 n q).trans ?_
  rw [biasRow128_apply]
  refine congrArg (fun s => (∑ k : Fin 64, x0 (ix2 n k) * x3 (ix2 k q) + s) + x5 (ix1 q)) (Finset.sum_congr rfl fun k _ => ?_)
  rw [div_eq_mul_one_div _ _ (clampDeg_ne_zero x2 n), ← invCol_apply]

/-- The rectifier's zero array at an index. -/
theorem zero0_apply (i : S50000x128.Idx) : val_main_call0_v0 (F := Ideal) i = Ideal.ofBits .f32 0x00000000#32 :=
  Cert.LibColumn.bcastInDim_scalar_apply (constant (F := Ideal) S_ .f32 0x00000000#32) bcast_S_S50000x128 i ix0
theorem zero1_apply (i : S50000x128.Idx) : val_main_call1_v0 (F := Ideal) i = Ideal.ofBits .f32 0x00000000#32 :=
  Cert.LibColumn.bcastInDim_scalar_apply (constant (F := Ideal) S_ .f32 0x00000000#32) bcast_S_S50000x128 i ix0

/-- The reference's first hidden array is the network's. -/
theorem ref_hidden1 (x0 : (⟨S50000x64, .f32⟩ : BufTy).Contents (Elt Ideal)) (x1 x2 : (⟨S800000, .i32⟩ : BufTy).Contents (Elt Ideal)) (x3 x4 : (⟨S64x128, .f32⟩ : BufTy).Contents (Elt Ideal)) (x5 : (⟨S128, .f32⟩ : BufTy).Contents (Elt Ideal)) : val_main_v25 (F := Ideal) x0 x1 x2 x3 x4 x5 = hidden1 x0 x1 x2 x3 x4 x5 := by
  funext i
  obtain ⟨n, q, rfl⟩ : ∃ (n : Fin 50000) (q : Fin 128), i = ix2 n q := ⟨i 0, i 1, eq_ix2 i⟩
  rw [val_main_v25_apply, Ideal.maximumf_def, pre1_apply, zero0_apply]
  rfl

/-- The second layer before its rectifier, at (n, q), over the first hidden array h. -/
theorem pre2_apply (x0 : (⟨S50000x64, .f32⟩ : BufTy).Contents (Elt Ideal)) (x1 x2 : (⟨S800000, .i32⟩ : BufTy).Contents (Elt Ideal)) (x3 x4 : (⟨S64x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (n : Fin 50000) (q : Fin 128) :
    val_main_v50 (F := Ideal) x0 x1 x2 x3 x4 x5 x6 x7 x8 (ix2 n q)
      = (∑ k : Fin 128, val_main_v25 (F := Ideal) x0 x1 x2 x3 x4 x5 (ix2 n k) * x6 (ix2 k q)
          + ∑ k : Fin 128, (agg128 (val_main_v25 (F := Ideal) x0 x1 x2 x3 x4 x5) x1 x2 (ix2 n k) * invCol x2 (ix2 n (0 : Fin 1))) * x7 (ix2 k q))
        + biasRow128 x8 (ix2 (0 : Fin 1) q) := by
  refine (Cert.LibMeanLayer.meanLayer_apply dot_S50000x128_S128x128_S50000x128_1_0_0_1_n_n_wf bcast_S50000_S50000x1_0
    bcast_S50000x1_S50000x128_0_1 bcast_S128_S1x128_1 bcast_S1x128_S50000x128_0_1 (val_main_v25 (F := Ideal) x0 x1 x2 x3 x4 x5)
    (agg128 (val_main_v25 (F := Ideal) x0 x1 x2 x3 x4 x5) x1 x2) (clampDeg x2) x6 x7 x8 n q).trans ?_
  rw [biasRow128_apply]
  refine congrArg (fun s => (∑ k : Fin 128, val_main_v25 (F := Ideal) x0 x1 x2 x3 x4 x5 (ix2 n k) * x6 (ix2 k q) + s) + x8 (ix1 q))
    (Finset.sum_congr rfl fun k _ => ?_)
  rw [div_eq_mul_one_div _ _ (clampDeg_ne_zero x2 n), ← invCol_apply]

/-- The reference's second hidden array is the network's. -/
theorem ref_hidden2 (x0 : (⟨S50000x64, .f32⟩ : BufTy).Contents (Elt Ideal)) (x1 x2 : (⟨S800000, .i32⟩ : BufTy).Contents (Elt Ideal)) (x3 x4 : (⟨S64x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v51 (F := Ideal) x0 x1 x2 x3 x4 x5 x6 x7 x8 = hidden2 (hidden1 x0 x1 x2 x3 x4 x5) x1 x2 x6 x7 x8 := by
  funext i
  obtain ⟨n, q, rfl⟩ : ∃ (n : Fin 50000) (q : Fin 128), i = ix2 n q := ⟨i 0, i 1, eq_ix2 i⟩
  rw [val_main_v51_apply, Ideal.maximumf_def, pre2_apply, zero1_apply, ref_hidden1]
  rfl

/-- The last layer at (n, q), over the second hidden array. -/
theorem pre3_apply (x0 : (⟨S50000x64, .f32⟩ : BufTy).Contents (Elt Ideal)) (x1 x2 : (⟨S800000, .i32⟩ : BufTy).Contents (Elt Ideal)) (x3 x4 : (⟨S64x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x64, .f32⟩ : BufTy).Contents (Elt Ideal)) (x11 : (⟨S64, .f32⟩ : BufTy).Contents (Elt Ideal)) (n : Fin 50000) (q : Fin 64) :
    val_main_v76 (F := Ideal) x0 x1 x2 x3 x4 x5 x6 x7 x8 x9 x10 x11 (ix2 n q)
      = (∑ k : Fin 128, val_main_v51 (F := Ideal) x0 x1 x2 x3 x4 x5 x6 x7 x8 (ix2 n k) * x9 (ix2 k q)
          + ∑ k : Fin 128, (agg128 (val_main_v51 (F := Ideal) x0 x1 x2 x3 x4 x5 x6 x7 x8) x1 x2 (ix2 n k) * invCol x2 (ix2 n (0 : Fin 1))) * x10 (ix2 k q))
        + biasRow64 x11 (ix2 (0 : Fin 1) q) := by
  refine (Cert.LibMeanLayer.meanLayer_apply dot_S50000x128_S128x64_S50000x64_1_0_0_1_n_n_wf bcast_S50000_S50000x1_0
    bcast_S50000x1_S50000x128_0_1 bcast_S64_S1x64_1 bcast_S1x64_S50000x64_0_1 (val_main_v51 (F := Ideal) x0 x1 x2 x3 x4 x5 x6 x7 x8)
    (agg128 (val_main_v51 (F := Ideal) x0 x1 x2 x3 x4 x5 x6 x7 x8) x1 x2) (clampDeg x2) x9 x10 x11 n q).trans ?_
  rw [biasRow64_apply]
  refine congrArg (fun s => (∑ k : Fin 128, val_main_v51 (F := Ideal) x0 x1 x2 x3 x4 x5 x6 x7 x8 (ix2 n k) * x9 (ix2 k q) + s) + x11 (ix1 q))
    (Finset.sum_congr rfl fun k _ => ?_)
  rw [div_eq_mul_one_div _ _ (clampDeg_ne_zero x2 n), ← invCol_apply]

/-- THE REFERENCE'S RESULT IS THE NETWORK'S, for real arguments: in the last layer the projection of the scaled
    neighbour sums is the scaled neighbour sum of the projections. -/
theorem ref_output (x0 : (⟨S50000x64, .f32⟩ : BufTy).Contents (Elt Ideal)) (x1 x2 : (⟨S800000, .i32⟩ : BufTy).Contents (Elt Ideal)) (x3 x4 : (⟨S64x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x64, .f32⟩ : BufTy).Contents (Elt Ideal)) (x11 : (⟨S64, .f32⟩ : BufTy).Contents (Elt Ideal))
    (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (h10 : ∀ i, IsReal (x10 i)) :
    val_main_v76 (F := Ideal) x0 x1 x2 x3 x4 x5 x6 x7 x8 x9 x10 x11
      = output (hidden2 (hidden1 x0 x1 x2 x3 x4 x5) x1 x2 x6 x7 x8) x1 x2 x9 x10 x11 := by
  funext i
  obtain ⟨n, q, rfl⟩ : ∃ (n : Fin 50000) (q : Fin 64), i = ix2 n q := ⟨i 0, i 1, eq_ix2 i⟩
  rw [pre3_apply, ref_hidden2]
  unfold output
  rw [lastLayer_apply]
  have hH : ∀ i, IsReal (hidden2 (hidden1 x0 x1 x2 x3 x4 x5) x1 x2 x6 x7 x8 i) :=
    isReal_hidden2 _ x1 x2 x6 x7 x8 (isReal_hidden1 x0 x1 x2 x3 x4 x5 h0 h3 h4 h5) h6 h7 h8
  refine congrArg (fun s => (∑ k : Fin 128, hidden2 (hidden1 x0 x1 x2 x3 x4 x5) x1 x2 x6 x7 x8 (ix2 n k) * x9 (ix2 k q) + s)
    + biasRow64 x11 (ix2 (0 : Fin 1) q)) ?_
  rw [agg64_apply]
  simp only [agg128_apply, SageSpec.proj_apply, zero_add, sum_ite_eq_sum_filter]
  exact (sum_proj_scale _ (fun e k => hidden2 (hidden1 x0 x1 x2 x3 x4 x5) x1 x2 x6 x7 x8 (ix2 (srcRow x1 e) k))
    (fun k => x10 (ix2 k q)) _ (fun e k => hH _) (fun k => h10 _) (isReal_invCol x2 n)).symm

end Cert.ReferenceIdeal.Net

end
-- ==== Proof.Finite.lean ====
/-
  The precondition makes every float argument a real number at every index.

  It is the conjunction, over the ten float arguments, of "every entry x has |x| < +∞": the comparison against the
  word of +∞ holds at an extended real x exactly when max(x, −x) is below the top element, which excludes both
  infinities and leaves the reals.
-/
import proofs.«137012_j14748917695089_2_alg».proof.Pre_finite_inputs
import proofs.«137012_j14748917695089_2_alg».proof.Proof.Gen.Pre_finite_inputs
import proofs.«137012_j14748917695089_2_alg».proof.Proof.LibFinite
import Idealize.ShloMosaic.Lib.ReduceAll
import Idealize.ShloMosaic.Lib.Affine
import Idealize.ShloMosaic.Lib.ValueIdx
import Idealize.ShloMosaic.PureOps.Ideal

noncomputable section

namespace Cert.Pre_finite_inputs.Reals

open Idealize.ShloMosaic Idealize.ShloMosaic.ValueIdx Idealize.ShloMosaic.LibFinite
open Cert.Pre_finite_inputs Cert.Pre_finite_inputs.Facts

instance : Subsingleton S_.Idx := ⟨fun a b => funext fun d => d.elim0⟩

/-- The single-precision word 0x7F800000 denotes +∞. -/
theorem ofBits_inf : Ideal.ofBits .f32 0x7F800000#32 = ⊤ := by
  simp [Ideal.ofBits, Ideal.ieee]

/-- An extended real whose absolute value compares below +∞ is a real. -/
theorem isReal_of_abs_lt_inf (x : EReal)
    (h : FloatOps.cmpf (F := Ideal) .olt (FloatOps.absf (F := Ideal) (φ := .f32) x) (Ideal.ofBits .f32 0x7F800000#32) = 1#1) :
    IsReal x := by
  rw [ofBits_inf] at h
  have h' : max x (-x) < ⊤ := by
    by_contra hn
    have h0 : FloatOps.cmpf (F := Ideal) .olt (FloatOps.absf (F := Ideal) (φ := .f32) x) (⊤ : EReal) = 0#1 := by
      show BitVec.ofBool (decide (max x (-x) < ⊤)) = 0#1
      rw [decide_eq_false hn]; rfl
    rw [h0] at h
    exact absurd h (by decide)
  induction x using EReal.rec with
  | bot => exact absurd h' (by simp)
  | coe r => exact ⟨r, rfl⟩
  | top => exact absurd h' (by simp)

/-- One conjunct of the precondition: the "all entries finite" test of one array gives each entry real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : IsReal (x i) :=
  isReal_of_abs_lt_inf (x i) (Host.reduce_andi_all _ _ hr hu ix0 e i)

/-- THE PRECONDITION'S CONTENT: all ten float arguments are real at every index. -/
theorem reals (a0 : FVec Ideal S50000x64 .f32) (a1 a2 : IVec S800000 32) (a3 a4 : FVec Ideal S64x128 .f32) (a5 : FVec Ideal S128 .f32)
    (a6 a7 : FVec Ideal S128x128 .f32) (a8 : FVec Ideal S128 .f32) (a9 a10 : FVec Ideal S128x64 .f32) (a11 : FVec Ideal S64 .f32)
    (h : fn (F := Ideal) a0 a1 a2 a3 a4 a5 a6 a7 a8 a9 a10 a11 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i)) ∧ (∀ i, IsReal (a11 i)) := by
  have e := congrFun h ix0
  dsimp only [fn, fn_part1, fn_part2, andi] at e
  simp only [IntOp.andi_eq_one] at e
  obtain ⟨⟨⟨⟨⟨⟨⟨⟨⟨e0, e3⟩, e4⟩, e5⟩, e6⟩, e7⟩, e8⟩, e9⟩, e10⟩, e11⟩ := e
  exact ⟨real_of_all a0 _ _ _ e0, real_of_all a3 _ _ _ e3, real_of_all a4 _ _ _ e4, real_of_all a5 _ _ _ e5,
    real_of_all a6 _ _ _ e6, real_of_all a7 _ _ _ e7, real_of_all a8 _ _ _ e8, real_of_all a9 _ _ _ e9,
    real_of_all a10 _ _ _ e10, real_of_all a11 _ _ _ e11⟩

end Cert.Pre_finite_inputs.Reals

end
-- ==== Proof.lean ====
/-
  A three-layer graph network with mean aggregation (50000 nodes, 800000 edges): each layer is
      h ↦ h · W_self + mean_neighbours(h) · W_neigh + b,
  with a rectifier after the first two. The kernel program computes the reciprocal clamped in-degrees once, keeps
  the gather and scatter-add of the neighbour sums on the host, and runs each layer's dense part as a launch over
  ten row blocks; in the last layer it projects by W_neigh BEFORE aggregating. The reference divides each
  neighbour sum by the clamped in-degree and projects after.

  On the extended reals the two programs end with equal results. The frames of the three programs are the
  launches' and the host runs' own; the idealization rewrote nothing. For the value: the kernel's result array is
  the network of its arguments (the four launches as whole-array functions, followed through the host stretches),
  the reference's result array is the same network — division by a degree ≥ 1 is multiplication by its
  reciprocal, and for the last layer, with all arguments finite, the scaled neighbour sum of projected rows is
  the projection of the scaled neighbour sums (two finite sums exchanged, real factors distributed).
-/
import proofs.«137012_j14748917695089_2_alg».proof.Defs
import proofs.«137012_j14748917695089_2_alg».proof.Proof.Gen.Kernel
import proofs.«137012_j14748917695089_2_alg».proof.Proof.Gen.Kernel.Skeleton
import proofs.«137012_j14748917695089_2_alg».proof.Proof.Gen.Kernel.Launch
import proofs.«137012_j14748917695089_2_alg».proof.Proof.Gen.Kernel.Points
import proofs.«137012_j14748917695089_2_alg».proof.Proof.Gen.Kernel.Frame
import proofs.«137012_j14748917695089_2_alg».proof.Proof.Gen.KernelIdeal
import proofs.«137012_j14748917695089_2_alg».proof.Proof.Gen.KernelIdeal.Skeleton
import proofs.«137012_j14748917695089_2_alg».proof.Proof.Gen.KernelIdeal.Launch
import proofs.«137012_j14748917695089_2_alg».proof.Proof.Gen.KernelIdeal.Points
import proofs.«137012_j14748917695089_2_alg».proof.Proof.Gen.KernelIdeal.Frame
import proofs.«137012_j14748917695089_2_alg».proof.Proof.Gen.ReferenceIdeal
import proofs.«137012_j14748917695089_2_alg».proof.Proof.Gen.ReferenceIdeal.Run
import proofs.«137012_j14748917695089_2_alg».proof.Proof.Gen.ReferenceIdeal.Read
import proofs.«137012_j14748917695089_2_alg».proof.Proof.Gen.Pre_finite_inputs
import proofs.«137012_j14748917695089_2_alg».proof.Proof.KernelRun
import proofs.«137012_j14748917695089_2_alg».proof.Proof.KernelValue
import proofs.«137012_j14748917695089_2_alg».proof.Proof.RefValue
import proofs.«137012_j14748917695089_2_alg».proof.Proof.Finite
import Idealize.ShloMosaic.Adequacy
import Idealize.ShloMosaic.Init

noncomputable section

namespace Cert.Proof

open Idealize.ShloMosaic Idealize.SL.Sem

/-- The word-level kernel terminates, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference is a run of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on finite arguments both idealized programs end at the network of the arguments. -/
theorem algebraic : Cert.algebraic_KernelIdeal_ReferenceIdeal := by
  intro m ρ m' ρ' hpre hagree
  refine ⟨fun c => Cert.KernelIdeal.Gen.W7 m ρ c (Proc.devRef .tc Cert.KernelIdeal.main_v45),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  obtain ⟨h0, h3, h4, h5, h6, h7, h8, h9, h10, h11⟩ := Cert.Pre_finite_inputs.Reals.reals
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11)) (hpre c)
  dsimp only
  rw [Cert.ReferenceIdeal.Read.val_main_v76_eq, Cert.KernelIdeal.Whole.w7_v45 m ρ c,
    e0, e1, e2, e3, e4, e5, e6, e7, e8, e9, e10, e11]
  exact Cert.ReferenceIdeal.Net.ref_output _ _ _ _ _ _ _ _ _ _ _ _ h0 h3 h4 h5 h6 h7 h8 h10

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
